-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v24)) (v6 : (c : Dev Cert.KernelIdeal.nD) → Buf (Elt Ideal) ((c.tc : Thread Cert.KernelIdeal.nD Cert.KernelIdeal.τ).loc Cert.KernelIdeal.main_v28)) (v7 : (c : Dev Cert.KernelIdeal.nD) → Buf (Elt Ideal) ((c.tc : Thread Cert.KernelIdeal.nD Cert.KernelIdeal.τ).loc Cert.KernelIdeal.main_v34)) (v8 : (c : Dev Cert.KernelIdeal.nD) → Buf (Elt Ideal) ((c.tc : Thread Cert.KernelIdeal.nD Cert.KernelIdeal.τ).loc Cert.KernelIdeal.main_v38)) (v9 : (c : Dev Cert.KernelIdeal.nD) → Buf (Elt Ideal) ((c.tc : Thread Cert.KernelIdeal.nD Cert.KernelIdeal.τ).loc Cert.KernelIdeal.main_v44)) (v10 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v24) = v5 c
          ∧ r.2.mem ((c.tc : Thread Cert.KernelIdeal.nD Cert.KernelIdeal.τ).loc Cert.KernelIdeal.main_v28) = v6 c
          ∧ r.2.mem ((c.tc : Thread Cert.KernelIdeal.nD Cert.KernelIdeal.τ).loc Cert.KernelIdeal.main_v34) = v7 c
          ∧ r.2.mem ((c.tc : Thread Cert.KernelIdeal.nD Cert.KernelIdeal.τ).loc Cert.KernelIdeal.main_v38) = v8 c
          ∧ r.2.mem ((c.tc : Thread Cert.KernelIdeal.nD Cert.KernelIdeal.τ).loc Cert.KernelIdeal.main_v44) = v9 c
          ∧ r.2.mem ((c.tc : Thread Cert.KernelIdeal.nD Cert.KernelIdeal.τ).loc Cert.KernelIdeal.main_v48) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_v30) = v6 c
          ∧ r.2.mem ((c.tc : Thread Cert.ReferenceIdeal.nD Cert.ReferenceIdeal.τ).loc Cert.ReferenceIdeal.main_v36) = v7 c
          ∧ r.2.mem ((c.tc : Thread Cert.ReferenceIdeal.nD Cert.ReferenceIdeal.τ).loc Cert.ReferenceIdeal.main_v40) = v8 c
          ∧ r.2.mem ((c.tc : Thread Cert.ReferenceIdeal.nD Cert.ReferenceIdeal.τ).loc Cert.ReferenceIdeal.main_v46) = v9 c
          ∧ r.2.mem ((c.tc : Thread Cert.ReferenceIdeal.nD Cert.ReferenceIdeal.τ).loc Cert.ReferenceIdeal.main_v50) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S64x256 : Shape := ⟨2, ![64, 256]⟩
abbrev S8x128x8x56 : Shape := ⟨4, ![8, 128, 8, 56]⟩
abbrev S8x128 : Shape := ⟨2, ![8, 128]⟩
abbrev S8x128x8 : Shape := ⟨3, ![8, 128, 8]⟩
abbrev S_ : Shape := ⟨0, ![]⟩
abbrev S256 : Shape := ⟨1, ![256]⟩
abbrev S64x128x2 : Shape := ⟨3, ![64, 128, 2]⟩
abbrev S64x128 : Shape := ⟨2, ![64, 128]⟩
abbrev S64x64x2 : Shape := ⟨3, ![64, 64, 2]⟩
abbrev S64x64 : Shape := ⟨2, ![64, 64]⟩
abbrev S64x32x2 : Shape := ⟨3, ![64, 32, 2]⟩
abbrev S64x32 : Shape := ⟨2, ![64, 32]⟩
abbrev S64x16x2 : Shape := ⟨3, ![64, 16, 2]⟩
abbrev S64x16 : Shape := ⟨2, ![64, 16]⟩

abbrev nBuf : Space → Nat
  | .hbm => 71
  | .vmem => 8
  | .smem => 0
  | _ => 0

abbrev bufTy : (tb : Table) → Fin (tcTables nBuf tb) → BufTy
  | .hbm, ⟨0, _⟩ => ⟨S64x256x56x56, .f32⟩
  | .hbm, ⟨1, _⟩ => ⟨S64x256, .f32⟩
  | .hbm, ⟨2, _⟩ => ⟨S64x256, .f32⟩
  | .hbm, ⟨3, _⟩ => ⟨S_, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S64x128x2, .f32⟩
  | .hbm, ⟨16, _⟩ => ⟨S_, .f32⟩
  | .hbm, ⟨17, _⟩ => ⟨S64x128, .f32⟩
  | .hbm, ⟨18, _⟩ => ⟨S64x128x2, .f32⟩
  | .hbm, ⟨19, _⟩ => ⟨S_, .f32⟩
  | .hbm, ⟨20, _⟩ => ⟨S64x128, .f32⟩
  | .hbm, ⟨21, _⟩ => ⟨S_, .f32⟩
  | .hbm, ⟨22, _⟩ => ⟨S64x128, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S64x128, .f32⟩
  | .hbm, ⟨28, _⟩ => ⟨S64x128, .f32⟩
  | .hbm, ⟨29, _⟩ => ⟨S64x64x2, .f32⟩
  | .hbm, ⟨30, _⟩ => ⟨S_, .f32⟩
  | .hbm, ⟨31, _⟩ => ⟨S64x64, .f32⟩
  | .hbm, ⟨32, _⟩ => ⟨S64x64x2, .f32⟩
  | .hbm, ⟨33, _⟩ => ⟨S_, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x32x2, .f32⟩
  | .hbm, ⟨44, _⟩ => ⟨S_, .f32⟩
  | .hbm, ⟨45, _⟩ => ⟨S64x32, .f32⟩
  | .hbm, ⟨46, _⟩ => ⟨S64x32x2, .f32⟩
  | .hbm, ⟨47, _⟩ => ⟨S_, .f32⟩
  | .hbm, ⟨48, _⟩ => ⟨S64x32, .f32⟩
  | .hbm, ⟨49, _⟩ => ⟨S_, .f32⟩
  | .hbm, ⟨50, _⟩ => ⟨S64x32, .f32⟩
  | .hbm, ⟨51, _⟩ => ⟨S64x32, .f32⟩
  | .hbm, ⟨52, _⟩ => ⟨S_, .f32⟩
  | .hbm, ⟨53, _⟩ => ⟨S64x32, .f32⟩
  | .hbm, ⟨54, _⟩ => ⟨S64x32, .f32⟩
  | .hbm, ⟨55, _⟩ => ⟨S64x32, .f32⟩
  | .hbm, ⟨56, _⟩ => ⟨S64x32, .f32⟩
  | .hbm, ⟨57, _⟩ => ⟨S64x16x2, .f32⟩
  | .hbm, ⟨58, _⟩ => ⟨S_, .f32⟩
  | .hbm, ⟨59, _⟩ => ⟨S64x16, .f32⟩
  | .hbm, ⟨60, _⟩ => ⟨S64x16x2, .f32⟩
  | .hbm, ⟨61, _⟩ => ⟨S_, .f32⟩
  | .hbm, ⟨62, _⟩ => ⟨S64x16, .f32⟩
  | .hbm, ⟨63, _⟩ => ⟨S_, .f32⟩
  | .hbm, ⟨64, _⟩ => ⟨S64x16, .f32⟩
  | .hbm, ⟨65, _⟩ => ⟨S64x16, .f32⟩
  | .hbm, ⟨66, _⟩ => ⟨S_, .f32⟩
  | .hbm, ⟨67, _⟩ => ⟨S64x16, .f32⟩
  | .hbm, ⟨68, _⟩ => ⟨S64x16, .f32⟩
  | .hbm, ⟨69, _⟩ => ⟨S64x16, .f32⟩
  | .hbm, ⟨70, _⟩ => ⟨S64x16, .f32⟩
  | .local _ .vmem, ⟨0, _⟩ => ⟨S8x128x8x56, .f32⟩
  | .local _ .vmem, ⟨1, _⟩ => ⟨S8x128x8x56, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_cst_13 : Ref sig .tc := ⟨.hbm, 49, rfl⟩
abbrev main_v33 : Ref sig .tc := ⟨.hbm, 50, rfl⟩
abbrev main_v34 : Ref sig .tc := ⟨.hbm, 51, rfl⟩
abbrev main_cst_14 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_15 : Ref sig .tc := ⟨.hbm, 58, rfl⟩
abbrev main_v40 : Ref sig .tc := ⟨.hbm, 59, rfl⟩
abbrev main_v41 : Ref sig .tc := ⟨.hbm, 60, rfl⟩
abbrev main_cst_16 : Ref sig .tc := ⟨.hbm, 61, rfl⟩
abbrev main_v42 : Ref sig .tc := ⟨.hbm, 62, rfl⟩
abbrev main_cst_17 : Ref sig .tc := ⟨.hbm, 63, rfl⟩
abbrev main_v43 : Ref sig .tc := ⟨.hbm, 64, rfl⟩
abbrev main_v44 : Ref sig .tc := ⟨.hbm, 65, rfl⟩
abbrev main_cst_18 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 7], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x8x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x8x56_S8x128x8x56_0_0_0_0 : ∀ a, (![0, 0, 0, 0] : Fin 4 → Nat) a + S8x128x8x56.size a ≤ S8x128x8x56.size a
  h_S8x128x8x56 : 0 < S8x128x8x56.numel
  reduces_S8x128x8x56_S8x128x8 : S8x128x8x56.Reduces [3] S8x128x8
  reduces_S8x128x8_S8x128 : S8x128x8.Reduces [2] S8x128
  reducesTo_S64x256_S256_d0 : S64x256.ReducesTo [0] S256
  h_S_ : 0 < S_.numel
  bcast_S_S256 : S_.BroadcastsInDim S256 (![] : Fin 0 → Fin S256.rank)
  shapeCasts_S64x256_S64x128x2 : S64x256.ShapeCasts S64x128x2
  reducesTo_S64x128x2_S64x128_d2 : S64x128x2.ReducesTo [2] S64x128
  bcast_S_S64x128 : S_.BroadcastsInDim S64x128 (![] : Fin 0 → Fin S64x128.rank)
  shapeCasts_S64x128_S64x64x2 : S64x128.ShapeCasts S64x64x2
  reducesTo_S64x64x2_S64x64_d2 : S64x64x2.ReducesTo [2] S64x64
  bcast_S_S64x64 : S_.BroadcastsInDim S64x64 (![] : Fin 0 → Fin S64x64.rank)
  shapeCasts_S64x64_S64x32x2 : S64x64.ShapeCasts S64x32x2
  reducesTo_S64x32x2_S64x32_d2 : S64x32x2.ReducesTo [2] S64x32
  bcast_S_S64x32 : S_.BroadcastsInDim S64x32 (![] : Fin 0 → Fin S64x32.rank)
  shapeCasts_S64x32_S64x16x2 : S64x32.ShapeCasts S64x16x2
  reducesTo_S64x16x2_S64x16_d2 : S64x16x2.ReducesTo [2] S64x16
  bcast_S_S64x16 : S_.BroadcastsInDim S64x16 (![] : Fin 0 → Fin S64x16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x8x56.size a ≤ S64x256x56x56.size a
  hwx0_0 : ∀ i : grid0.Coords, EltTy.bits .f32 = 32 ∨ (Rect.block (s := S64x256x56x56) S8x128x8x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x256.size a
  hwx0_1 : ∀ i : grid0.Coords, EltTy.bits .f32 = 32 ∨ (Rect.block (s := S64x256) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x256.size a
  hwx0_2 : ∀ i : grid0.Coords, EltTy.bits .f32 = 32 ∨ (Rect.block (s := S64x256) S8x128.size (cc0_transform_2 i) (hinb0_2 i)).WholeWords (EltTy.packing .f32)

variable [Facts₀]

abbrev win0_0 : Pipeline.Window sig grid0 :=
  Pipeline.Window.ofSpec (Memref.whole main_arg0) S8x128x8x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S_ : Shape := ⟨0, ![]⟩
abbrev S64x256 : Shape := ⟨2, ![64, 256]⟩
abbrev S256 : Shape := ⟨1, ![256]⟩
abbrev S64x128x2 : Shape := ⟨3, ![64, 128, 2]⟩
abbrev S64x128 : Shape := ⟨2, ![64, 128]⟩
abbrev S64x64x2 : Shape := ⟨3, ![64, 64, 2]⟩
abbrev S64x64 : Shape := ⟨2, ![64, 64]⟩
abbrev S64x32x2 : Shape := ⟨3, ![64, 32, 2]⟩
abbrev S64x32 : Shape := ⟨2, ![64, 32]⟩
abbrev S64x16x2 : Shape := ⟨3, ![64, 16, 2]⟩
abbrev S64x16 : Shape := ⟨2, ![64, 16]⟩

abbrev nBuf : Space → Nat
  | .hbm => 74
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S_, .f32⟩
  | .hbm, ⟨2, _⟩ => ⟨S64x256, .f32⟩
  | .hbm, ⟨3, _⟩ => ⟨S64x256x56x56, .f32⟩
  | .hbm, ⟨4, _⟩ => ⟨S_, .f32⟩
  | .hbm, ⟨5, _⟩ => ⟨S64x256, .f32⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S64x128x2, .f32⟩
  | .hbm, ⟨19, _⟩ => ⟨S_, .f32⟩
  | .hbm, ⟨20, _⟩ => ⟨S64x128, .f32⟩
  | .hbm, ⟨21, _⟩ => ⟨S64x128x2, .f32⟩
  | .hbm, ⟨22, _⟩ => ⟨S_, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S_, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x64x2, .f32⟩
  | .hbm, ⟨33, _⟩ => ⟨S_, .f32⟩
  | .hbm, ⟨34, _⟩ => ⟨S64x64, .f32⟩
  | .hbm, ⟨35, _⟩ => ⟨S64x64x2, .f32⟩
  | .hbm, ⟨36, _⟩ => ⟨S_, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x32x2, .f32⟩
  | .hbm, ⟨47, _⟩ => ⟨S_, .f32⟩
  | .hbm, ⟨48, _⟩ => ⟨S64x32, .f32⟩
  | .hbm, ⟨49, _⟩ => ⟨S64x32x2, .f32⟩
  | .hbm, ⟨50, _⟩ => ⟨S_, .f32⟩
  | .hbm, ⟨51, _⟩ => ⟨S64x32, .f32⟩
  | .hbm, ⟨52, _⟩ => ⟨S_, .f32⟩
  | .hbm, ⟨53, _⟩ => ⟨S64x32, .f32⟩
  | .hbm, ⟨54, _⟩ => ⟨S64x32, .f32⟩
  | .hbm, ⟨55, _⟩ => ⟨S_, .f32⟩
  | .hbm, ⟨56, _⟩ => ⟨S64x32, .f32⟩
  | .hbm, ⟨57, _⟩ => ⟨S64x32, .f32⟩
  | .hbm, ⟨58, _⟩ => ⟨S64x32, .f32⟩
  | .hbm, ⟨59, _⟩ => ⟨S64x32, .f32⟩
  | .hbm, ⟨60, _⟩ => ⟨S64x16x2, .f32⟩
  | .hbm, ⟨61, _⟩ => ⟨S_, .f32⟩
  | .hbm, ⟨62, _⟩ => ⟨S64x16, .f32⟩
  | .hbm, ⟨63, _⟩ => ⟨S64x16x2, .f32⟩
  | .hbm, ⟨64, _⟩ => ⟨S_, .f32⟩
  | .hbm, ⟨65, _⟩ => ⟨S64x16, .f32⟩
  | .hbm, ⟨66, _⟩ => ⟨S_, .f32⟩
  | .hbm, ⟨67, _⟩ => ⟨S64x16, .f32⟩
  | .hbm, ⟨68, _⟩ => ⟨S64x16, .f32⟩
  | .hbm, ⟨69, _⟩ => ⟨S_, .f32⟩
  | .hbm, ⟨70, _⟩ => ⟨S64x16, .f32⟩
  | .hbm, ⟨71, _⟩ => ⟨S64x16, .f32⟩
  | .hbm, ⟨72, _⟩ => ⟨S64x16, .f32⟩
  | .hbm, ⟨73, _⟩ => ⟨S64x16, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_cst_4 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_5 : Ref sig .tc := ⟨.hbm, 19, rfl⟩
abbrev main_v12 : Ref sig .tc := ⟨.hbm, 20, rfl⟩
abbrev main_v13 : Ref sig .tc := ⟨.hbm, 21, rfl⟩
abbrev main_cst_6 : Ref sig .tc := ⟨.hbm, 22, rfl⟩
abbrev main_v14 : Ref sig .tc := ⟨.hbm, 23, rfl⟩
abbrev main_cst_7 : Ref sig .tc := ⟨.hbm, 24, rfl⟩
abbrev main_v15 : Ref sig .tc := ⟨.hbm, 25, rfl⟩
abbrev main_v16 : Ref sig .tc := ⟨.hbm, 26, rfl⟩
abbrev main_cst_8 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_9 : Ref sig .tc := ⟨.hbm, 33, rfl⟩
abbrev main_v22 : Ref sig .tc := ⟨.hbm, 34, rfl⟩
abbrev main_v23 : Ref sig .tc := ⟨.hbm, 35, rfl⟩
abbrev main_cst_10 : Ref sig .tc := ⟨.hbm, 36, rfl⟩
abbrev main_v24 : Ref sig .tc := ⟨.hbm, 37, rfl⟩
abbrev main_cst_11 : Ref sig .tc := ⟨.hbm, 38, rfl⟩
abbrev main_v25 : Ref sig .tc := ⟨.hbm, 39, rfl⟩
abbrev main_v26 : Ref sig .tc := ⟨.hbm, 40, rfl⟩
abbrev main_cst_12 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_13 : Ref sig .tc := ⟨.hbm, 47, rfl⟩
abbrev main_v32 : Ref sig .tc := ⟨.hbm, 48, rfl⟩
abbrev main_v33 : Ref sig .tc := ⟨.hbm, 49, rfl⟩
abbrev main_cst_14 : Ref sig .tc := ⟨.hbm, 50, rfl⟩
abbrev main_v34 : Ref sig .tc := ⟨.hbm, 51, rfl⟩
abbrev main_cst_15 : Ref sig .tc := ⟨.hbm, 52, rfl⟩
abbrev main_v35 : Ref sig .tc := ⟨.hbm, 53, rfl⟩
abbrev main_v36 : Ref sig .tc := ⟨.hbm, 54, rfl⟩
abbrev main_cst_16 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_17 : Ref sig .tc := ⟨.hbm, 61, rfl⟩
abbrev main_v42 : Ref sig .tc := ⟨.hbm, 62, rfl⟩
abbrev main_v43 : Ref sig .tc := ⟨.hbm, 63, rfl⟩
abbrev main_cst_18 : Ref sig .tc := ⟨.hbm, 64, rfl⟩
abbrev main_v44 : Ref sig .tc := ⟨.hbm, 65, rfl⟩
abbrev main_cst_19 : Ref sig .tc := ⟨.hbm, 66, rfl⟩
abbrev main_v45 : Ref sig .tc := ⟨.hbm, 67, rfl⟩
abbrev main_v46 : Ref sig .tc := ⟨.hbm, 68, rfl⟩
abbrev main_cst_20 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  reducesTo_S64x256x56x56_S64x256_d2_3 : S64x256x56x56.ReducesTo [2, 3] S64x256
  h_S_ : 0 < S_.numel
  reducesTo_S64x256_S256_d0 : S64x256.ReducesTo [0] S256
  bcast_S_S256 : S_.BroadcastsInDim S256 (![] : Fin 0 → Fin S256.rank)
  shapeCasts_S64x256_S64x128x2 : S64x256.ShapeCasts S64x128x2
  reducesTo_S64x128x2_S64x128_d2 : S64x128x2.ReducesTo [2] S64x128
  bcast_S_S64x128 : S_.BroadcastsInDim S64x128 (![] : Fin 0 → Fin S64x128.rank)
  shapeCasts_S64x128_S64x64x2 : S64x128.ShapeCasts S64x64x2
  reducesTo_S64x64x2_S64x64_d2 : S64x64x2.ReducesTo [2] S64x64
  bcast_S_S64x64 : S_.BroadcastsInDim S64x64 (![] : Fin 0 → Fin S64x64.rank)
  shapeCasts_S64x64_S64x32x2 : S64x64.ShapeCasts S64x32x2
  reducesTo_S64x32x2_S64x32_d2 : S64x32x2.ReducesTo [2] S64x32
  bcast_S_S64x32 : S_.BroadcastsInDim S64x32 (![] : Fin 0 → Fin S64x32.rank)
  shapeCasts_S64x32_S64x16x2 : S64x32.ShapeCasts S64x16x2
  reducesTo_S64x16x2_S64x16_d2 : S64x16x2.ReducesTo [2] S64x16
  bcast_S_S64x16 : S_.BroadcastsInDim S64x16 (![] : Fin 0 → Fin S64x16.rank)

variable [Facts₀]

class Facts : Prop extends Facts₀ where

variable [Facts]
-- ==== Proof.KernelSetup.lean ====
/-
  The statistics kernel's launch, read around its region.

  The program is one region over a grid of 8 x 2 x 7 points followed by 68 host operations that combine the
  region's two [64, 256] results. A grid point (i, j, h) stages the block of the argument with rows 8i..8i+7 of
  axis 0, 128j..128j+127 of axis 1 and 8h..8h+7 of axis 2 (all 56 of axis 3), and the two output blocks (i, j).
  The third grid coordinate is the accumulation step: at h = 0 the two scratch accumulators are cleared, at every
  step the block's sums are added to them and both accumulators are copied to the output blocks.

  Here: the buffers' contents when the region is entered; that the operations after the region neither allocate,
  nor leave the buffers a continuation may touch, nor write one of the region's three arrays; the argument's block
  at a point, which the input's staging buffer holds at every point; the step condition in closed form
  (h = 0 exactly at the points whose number is a multiple of 7); that no window is ever idle; the names of the
  staging and scratch buffers a point works on; and that the frame claim follows from a run that names every
  array after the region.
-/
import proofs.«129450_j49847390437779_2_alg».proof.Proof.Gen.Kernel.Launch
import proofs.«129450_j49847390437779_2_alg».proof.Proof.Gen.Kernel.Skeleton
import proofs.«129450_j49847390437779_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- A core's buffer contents when the region is entered: nothing runs before it, so the launch contents. -/
abbrev entry0 (c : Dev nD) : Valuation τ sig (Elt F) := StableHlo.after (List.flatten []) (fun b => m (c, b))
/-- The same at a reference of the core. -/
abbrev entryAt (c : Dev nD) (b : Ref sig .tc) : Buf (Elt F) ((c : Thread nD τ).loc b) := entry0 m c (Proc.devRef .tc b)

theorem entryAt_arg (c : Dev nD) : entryAt m c main_arg0 = m ((c : Thread nD τ).loc main_arg0) := rfl

/-- None of the 68 operations after the region allocates a buffer. -/
theorem tail_fresh_all : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- An operation that writes exactly the buffer `r`, which is none of the region's three arrays, writes none of them. -/
theorem keeps_of {op : HloOp τ sig (Elt F)} (r : Ref sig .tc) (hw : op.writes = {Proc.devRef .tc r})
    (h : ∀ w : Fin cfg0.W, Pipeline.arrRef spec0 w ≠ r) :
    ∀ w : Fin cfg0.W, Proc.devRef (τ := τ) .tc (Pipeline.arrRef spec0 w) ∉ op.writes := by
  intro w; rw [hw, Finset.mem_singleton]; exact StableHlo.devRef_ne_of_ne (h w)

/-- Each of the 68 operations writes its own result buffer only: the argument and the region's two results stay. -/
theorem tail_keeps_all : (hostOps1 : List (HloOp τ sig (Elt F))).Forall fun op =>
    ∀ w : Fin cfg0.W, Proc.devRef (τ := τ) .tc (Pipeline.arrRef spec0 w) ∉ op.writes :=
  ⟨keeps_of main_cst rfl (fun w => by fin_cases w <;> decide),
   keeps_of main_v1 rfl (fun w => by fin_cases w <;> decide),
   keeps_of main_cst_0 rfl (fun w => by fin_cases w <;> decide),
   keeps_of main_v2 rfl (fun w => by fin_cases w <;> decide),
   keeps_of main_v3 rfl (fun w => by fin_cases w <;> decide),
   keeps_of main_cst_1 rfl (fun w => by fin_cases w <;> decide),
   keeps_of main_v4 rfl (fun w => by fin_cases w <;> decide),
   keeps_of main_cst_2 rfl (fun w => by fin_cases w <;> decide),
   keeps_of main_v5 rfl (fun w => by fin_cases w <;> decide),
   keeps_of main_v6 rfl (fun w => by fin_cases w <;> decide),
   keeps_of main_v7 rfl (fun w => by fin_cases w <;> decide),
   keeps_of main_v8 rfl (fun w => by fin_cases w <;> decide),
   keeps_of main_v9 rfl (fun w => by fin_cases w <;> decide),
   keeps_of main_cst_3 rfl (fun w => by fin_cases w <;> decide),
   keeps_of main_v10 rfl (fun w => by fin_cases w <;> decide),
   keeps_of main_v11 rfl (fun w => by fin_cases w <;> decide),
   keeps_of main_cst_4 rfl (fun w => by fin_cases w <;> decide),
   keeps_of main_v12 rfl (fun w => by fin_cases w <;> decide),
   keeps_of main_cst_5 rfl (fun w => by fin_cases w <;> decide),
   keeps_of main_v13 rfl (fun w => by fin_cases w <;> decide),
   keeps_of main_v14 rfl (fun w => by fin_cases w <;> decide),
   keeps_of main_cst_6 rfl (fun w => by fin_cases w <;> decide),
   keeps_of main_v15 rfl (fun w => by fin_cases w <;> decide),
   keeps_of main_v16 rfl (fun w => by fin_cases w <;> decide),
   keeps_of main_v17 rfl (fun w => by fin_cases w <;> decide),
   keeps_of main_v18 rfl (fun w => by fin_cases w <;> decide),
   keeps_of main_v19 rfl (fun w => by fin_cases w <;> decide),
   keeps_of main_cst_7 rfl (fun w => by fin_cases w <;> decide),
   keeps_of main_v20 rfl (fun w => by fin_cases w <;> decide),
   keeps_of main_v21 rfl (fun w => by fin_cases w <;> decide),
   keeps_of main_cst_8 rfl (fun w => by fin_cases w <;> decide),
   keeps_of main_v22 rfl (fun w => by fin_cases w <;> decide),
   keeps_of main_cst_9 rfl (fun w => by fin_cases w <;> decide),
   keeps_of main_v23 rfl (fun w => by fin_cases w <;> decide),
   keeps_of main_v24 rfl (fun w => by fin_cases w <;> decide),
   keeps_of main_cst_10 rfl (fun w => by fin_cases w <;> decide),
   keeps_of main_v25 rfl (fun w => by fin_cases w <;> decide),
   keeps_of main_v26 rfl (fun w => by fin_cases w <;> decide),
   keeps_of main_v27 rfl (fun w => by fin_cases w <;> decide),
   keeps_of main_v28 rfl (fun w => by fin_cases w <;> decide),
   keeps_of main_v29 rfl (fun w => by fin_cases w <;> decide),
   keeps_of main_cst_11 rfl (fun w => by fin_cases w <;> decide),
   keeps_of main_v30 rfl (fun w => by fin_cases w <;> decide),
   keeps_of main_v31 rfl (fun w => by fin_cases w <;> decide),
   keeps_of main_cst_12 rfl (fun w => by fin_cases w <;> decide),
   keeps_of main_v32 rfl (fun w => by fin_cases w <;> decide),
   keeps_of main_cst_13 rfl (fun w => by fin_cases w <;> decide),
   keeps_of main_v33 rfl (fun w => by fin_cases w <;> decide),
   keeps_of main_v34 rfl (fun w => by fin_cases w <;> decide),
   keeps_of main_cst_14 rfl (fun w => by fin_cases w <;> decide),
   keeps_of main_v35 rfl (fun w => by fin_cases w <;> decide),
   keeps_of main_v36 rfl (fun w => by fin_cases w <;> decide),
   keeps_of main_v37 rfl (fun w => by fin_cases w <;> decide),
   keeps_of main_v38 rfl (fun w => by fin_cases w <;> decide),
   keeps_of main_v39 rfl (fun w => by fin_cases w <;> decide),
   keeps_of main_cst_15 rfl (fun w => by fin_cases w <;> decide),
   keeps_of main_v40 rfl (fun w => by fin_cases w <;> decide),
   keeps_of main_v41 rfl (fun w => by fin_cases w <;> decide),
   keeps_of main_cst_16 rfl (fun w => by fin_cases w <;> decide),
   keeps_of main_v42 rfl (fun w => by fin_cases w <;> decide),
   keeps_of main_cst_17 rfl (fun w => by fin_cases w <;> decide),
   keeps_of main_v43 rfl (fun w => by fin_cases w <;> decide),
   keeps_of main_v44 rfl (fun w => by fin_cases w <;> decide),
   keeps_of main_cst_18 rfl (fun w => by fin_cases w <;> decide),
   keeps_of main_v45 rfl (fun w => by fin_cases w <;> decide),
   keeps_of main_v46 rfl (fun w => by fin_cases w <;> decide),
   keeps_of main_v47 rfl (fun w => by fin_cases w <;> decide),
   keeps_of main_v48 rfl (fun w => by fin_cases w <;> decide)⟩

/-- The program is its region continued by the 68 operations. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] (by simp only [List.Forall])
    (by simp only [List.Forall]) main_chain

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh_all) op hop

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_keeps_all) op hop

/-! ## The blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The input's staging buffer holds the argument's block of the point at every point, for any proof data whose
    array is the entry contents and whose body leaves the block in place. -/
theorem input_held_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim from a run that names the arrays -/

theorem frame_of (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (entryAt_arg m c)))) h

/-! ## The accumulation step -/

/-- The body's condition "this is the first accumulation step" from the grid coordinates. -/
abbrev firstStep (i : grid0.Coords) : Prop :=
  (Scalar.cmpi .ne (Scalar.extui (Scalar.cmpi .eq (BitVec.ofNat 32 (i 2).val) 0#32)) 0#32) = 1#1
/-- It holds exactly at the points whose number is a multiple of 7 (the third axis has 7 steps and runs fastest). -/
theorem firstStep_iff : ∀ t : Fin cfg0.N, firstStep (grid0.coords t) ↔ t.val % 7 = 0 :=
  (by decide +kernel : ∀ t : Fin grid0.N, firstStep (grid0.coords t) ↔ t.val % 7 = 0)

/-- No window is idle at any point: the input is read and both outputs are stored at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The buffers a point works on -/

/-- The staging buffers current at point `t`: the input block's, the sums' and the sums of squares'. -/
abbrev xbuf (t : Fin cfg0.N) : Memref sig .tc .vmem S8x128x8x56 .f32 := win0_0.stage (cfg0.slots t 0)
abbrev xbuf_whole (t : Fin cfg0.N) : (xbuf t).IsWhole := hstage0_0 ((cfg0.slots t 0).cast nbuf0_0)
abbrev sbuf (t : Fin cfg0.N) : Memref sig .tc .vmem S8x128 .f32 := win0_1.stage (cfg0.slots t 1)
abbrev sbuf_whole (t : Fin cfg0.N) : (sbuf t).IsWhole := hstage0_1 ((cfg0.slots t 1).cast nbuf0_1)
abbrev qbuf (t : Fin cfg0.N) : Memref sig .tc .vmem S8x128 .f32 := win0_2.stage (cfg0.slots t 2)
abbrev qbuf_whole (t : Fin cfg0.N) : (qbuf t).IsWhole := hstage0_2 ((cfg0.slots t 2).cast nbuf0_2)
/-- The two accumulators: the running sums and the running sums of squares. -/
abbrev accS : Memref sig .tc .vmem S8x128 .f32 := Memref.whole cc0_scratch0
abbrev accQ : Memref sig .tc .vmem S8x128 .f32 := Memref.whole cc0_scratch1
/-- Views through which the contents of the outputs' staging buffers and of the accumulators are stated. -/
abbrev outS : View sig .tc .vmem S8x128 .f32 := (Memref.whole cc0_stg1_0 : Memref sig .tc .vmem S8x128 .f32).view
abbrev outQ : View sig .tc .vmem S8x128 .f32 := (Memref.whole cc0_stg2_0 : Memref sig .tc .vmem S8x128 .f32).view
abbrev accSV : View sig .tc .vmem S8x128 .f32 := accS.view
abbrev accQV : View sig .tc .vmem S8x128 .f32 := accQ.view

/-- What the region may use beside its windows: the two accumulators at some contents and the generator register. -/
theorem rest_eq (c : Dev nD) :
    (Pipeline.ΦA spec0 c : sProp 𝕄)
      = iprop(iprop((∃ d, owns (c : Thread nD τ) accS fullShare d) ∗ (∃ d, owns (c : Thread nD τ) accQ fullShare d)) ∗ (∃ r, prngReg c r)) := by
  unfold Pipeline.ΦA; rw [scopedRest0_eq]; simp only [accS, accQ, owns_whole]; try rfl

end Cert.Kernel.Stats

end
-- ==== Proof.KernelRunFirst.lean ====
/-
  The kernel's body at a point of the first accumulation step (h = 0).

  Whatever the accumulators held, the body clears both, loads the point's block of the argument, adds the block's sums
  over its last two axes to the first accumulator and the sums of its squares to the second, and copies both
  accumulators into the outputs' staging buffers. The statement holds on any whole buffers: the input's at the block,
  the four others at anything; it names what the four are left with as the pieces the body stored, in store order,
  and keeps the input's contents.
-/
import proofs.«129450_j49847390437779_2_alg».proof.Proof.KernelSetup

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when the step condition holds, with the stored pieces of the two outputs' buffers and of the two
    accumulators. -/
noncomputable def runFirst (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc : firstStep i)
    (x0 : Vec F S8x128x8x56 .f32) :
    Σ' (L1 : List (View.Piece (Elt F) S8x128 .f32)) (L2 : List (View.Piece (Elt F) S8x128 .f32)) (LS0 : List (View.Piece (Elt F) S8x128 .f32)), { LS1 : List (View.Piece (Elt F) S8x128 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%ds0, %fs0, -, HS0⟩, ⟨%ds1, %fs1, -, HS1⟩, Hk⟩
    obtain rfl := harg3.eq_unread hf0
    sl_exec (disch := first | exact hc)
    sl_step
    iapply Hk
    isplitl [H0]
    · iexists _; isplitr; · ipureintro; exact harg3.read_unread _
      iexact H0
    isplitl [H1]; · iexists _; iexact H1
    isplitl [H2]; · iexists _; iexact H2
    isplitl [HS0]; · iexists _; iexact HS0
    iexists _; iexact HS1

end Cert.Kernel.Stats

end
-- ==== Proof.KernelRunLater.lean ====
/-
  The kernel's body at a point of a later accumulation step (h > 0).

  The accumulators hold what the step before left. The body loads the point's block of the argument, adds the block's
  sums over its last two axes to the first accumulator and the sums of its squares to the second, and copies both
  accumulators into the outputs' staging buffers. As for the first step the statement is on any whole buffers and
  names what the four written buffers are left with as the stored pieces.
-/
import proofs.«129450_j49847390437779_2_alg».proof.Proof.KernelRunFirst

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when the step condition fails, from accumulators at `xs0` and `xs1`. -/
noncomputable def runLater (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc : ¬firstStep i)
    (x0 : Vec F S8x128x8x56 .f32) (xs0 xs1 : Vec F S8x128 .f32) :
    Σ' (L1 : List (View.Piece (Elt F) S8x128 .f32)) (L2 : List (View.Piece (Elt F) S8x128 .f32)) (LS0 : List (View.Piece (Elt F) S8x128 .f32)), { LS1 : List (View.Piece (Elt F) S8x128 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg3.eq_unread hf0; obtain rfl := harg6.eq_unread hfs0; obtain rfl := harg7.eq_unread hfs1
    sl_exec (disch := first | exact hc)
    sl_step
    iapply Hk
    isplitl [H0]
    · iexists _; isplitr; · ipureintro; exact harg3.read_unread _
      iexact H0
    isplitl [H1]; · iexists _; iexact H1
    isplitl [H2]; · iexists _; iexact H2
    isplitl [HS0]; · iexists _; iexact HS0
    iexists _; iexact HS1

end Cert.Kernel.Stats

end
-- ==== Proof.KernelFrame.lean ====
/-
  The statistics kernel runs to its end, faults nowhere, and leaves its argument as it found it.

  What the four written buffers hold after each point is defined by recursion on the point's number: at a point of
  the first step (number divisible by 7) what the first-step run leaves, at any other point what the later-step run
  leaves from the accumulators as the point before left them. Between points the region keeps the two accumulators at
  exactly those contents; before the first point and after the last they are at anything. The body obligation at a
  point is the run of the point's case; the launch theorem for a region followed by host operations then gives a run of
  the whole program in which every array after the region is named, and the frame claim is its statement about the
  argument.
-/
import proofs.«129450_j49847390437779_2_alg».proof.Proof.KernelRunLater

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The first-step run at point `t`: on the point's staging buffers, the accumulators, and the argument's block. -/
abbrev firstRun (c : Dev nD) (t : Fin cfg0.N) (h : t.val % 7 = 0) :=
  runFirst (F := F) c (grid0.coords t) (xbuf t) (xbuf_whole t) (sbuf t) (sbuf_whole t) (qbuf t) (qbuf_whole t) accS (Memref.isWhole_whole _) accQ (Memref.isWhole_whole _)
    ((firstStep_iff t).mpr h) (blockAt m c 0 t)
/-- The later-step run at point `t`, from accumulators at `xs0`, `xs1`. -/
abbrev laterRun (c : Dev nD) (t : Fin cfg0.N) (h : ¬t.val % 7 = 0) (xs0 xs1 : Vec F S8x128 .f32) :=
  runLater (F := F) c (grid0.coords t) (xbuf t) (xbuf_whole t) (sbuf t) (sbuf_whole t) (qbuf t) (qbuf_whole t) accS (Memref.isWhole_whole _) accQ (Memref.isWhole_whole _)
    (fun hc => h ((firstStep_iff t).mp hc)) (blockAt m c 0 t) xs0 xs1

/-- What a first-step point leaves in the sums' buffer, the squares' buffer and the two accumulators: the stored
    pieces read back. -/
def firstLeaves (c : Dev nD) (t : Fin cfg0.N) (h : t.val % 7 = 0) : Vec F S8x128 .f32 × Vec F S8x128 .f32 × Vec F S8x128 .f32 × Vec F S8x128 .f32 :=
  (outS.read (Elt F) (outS.writes (Elt F) outS.junk (firstRun m c t h).1),
   outQ.read (Elt F) (outQ.writes (Elt F) outQ.junk (firstRun m c t h).2.1),
   accSV.read (Elt F) (accSV.writes (Elt F) accSV.junk (firstRun m c t h).2.2.1),
   accQV.read (Elt F) (accQV.writes (Elt F) accQV.junk (firstRun m c t h).2.2.2.1))
/-- The same for a later-step point. -/
def laterLeaves (c : Dev nD) (t : Fin cfg0.N) (h : ¬t.val % 7 = 0) (xs0 xs1 : Vec F S8x128 .f32) : Vec F S8x128 .f32 × Vec F S8x128 .f32 × Vec F S8x128 .f32 × Vec F S8x128 .f32 :=
  (outS.read (Elt F) (outS.writes (Elt F) outS.junk (laterRun m c t h xs0 xs1).1),
   outQ.read (Elt F) (outQ.writes (Elt F) outQ.junk (laterRun m c t h xs0 xs1).2.1),
   accSV.read (Elt F) (accSV.writes (Elt F) accSV.junk (laterRun m c t h xs0 xs1).2.2.1),
   accQV.read (Elt F) (accQV.writes (Elt F) accQV.junk (laterRun m c t h xs0 xs1).2.2.2.1))

/-- In either case the pieces stored into each of the four buffers cover it (whole-buffer stores). -/
theorem first_cover_outS (c : Dev nD) (t : Fin cfg0.N) (h : t.val % 7 = 0) (y : S8x128.Idx) : ∃ pc ∈ (firstRun m c t h).1, y ∈ pc.1.set :=
  View.cover_of_tiledL (firstRun m c t h).1 S8x128.size (by sl_kernel_rfl) y
theorem first_cover_outQ (c : Dev nD) (t : Fin cfg0.N) (h : t.val % 7 = 0) (y : S8x128.Idx) : ∃ pc ∈ (firstRun m c t h).2.1, y ∈ pc.1.set :=
  View.cover_of_tiledL (firstRun m c t h).2.1 S8x128.size (by sl_kernel_rfl) y
theorem first_cover_accS (c : Dev nD) (t : Fin cfg0.N) (h : t.val % 7 = 0) (y : S8x128.Idx) : ∃ pc ∈ (firstRun m c t h).2.2.1, y ∈ pc.1.set :=
  View.cover_of_tiledL (firstRun m c t h).2.2.1 S8x128.size (by sl_kernel_rfl) y
theorem first_cover_accQ (c : Dev nD) (t : Fin cfg0.N) (h : t.val % 7 = 0) (y : S8x128.Idx) : ∃ pc ∈ (firstRun m c t h).2.2.2.1, y ∈ pc.1.set :=
  View.cover_of_tiledL (firstRun m c t h).2.2.2.1 S8x128.size (by sl_kernel_rfl) y
theorem later_cover_outS (c : Dev nD) (t : Fin cfg0.N) (h : ¬t.val % 7 = 0) (xs0 xs1 : Vec F S8x128 .f32) (y : S8x128.Idx) : ∃ pc ∈ (laterRun m c t h xs0 xs1).1, y ∈ pc.1.set :=
  View.cover_of_tiledL (laterRun m c t h xs0 xs1).1 S8x128.size (by sl_kernel_rfl) y
theorem later_cover_outQ (c : Dev nD) (t : Fin cfg0.N) (h : ¬t.val % 7 = 0) (xs0 xs1 : Vec F S8x128 .f32) (y : S8x128.Idx) : ∃ pc ∈ (laterRun m c t h xs0 xs1).2.1, y ∈ pc.1.set :=
  View.cover_of_tiledL (laterRun m c t h xs0 xs1).2.1 S8x128.size (by sl_kernel_rfl) y
theorem later_cover_accS (c : Dev nD) (t : Fin cfg0.N) (h : ¬t.val % 7 = 0) (xs0 xs1 : Vec F S8x128 .f32) (y : S8x128.Idx) : ∃ pc ∈ (laterRun m c t h xs0 xs1).2.2.1, y ∈ pc.1.set :=
  View.cover_of_tiledL (laterRun m c t h xs0 xs1).2.2.1 S8x128.size (by sl_kernel_rfl) y
theorem later_cover_accQ (c : Dev nD) (t : Fin cfg0.N) (h : ¬t.val % 7 = 0) (xs0 xs1 : Vec F S8x128 .f32) (y : S8x128.Idx) : ∃ pc ∈ (laterRun m c t h xs0 xs1).2.2.2.1, y ∈ pc.1.set :=
  View.cover_of_tiledL (laterRun m c t h xs0 xs1).2.2.2.1 S8x128.size (by sl_kernel_rfl) y

/-! ## The accumulation over the points -/

/-- What the sums' buffer, the squares' buffer and the two accumulators hold after the body at point number `n`. -/
def heldAfter (c : Dev nD) : (n : ℕ) → n < cfg0.N → Vec F S8x128 .f32 × Vec F S8x128 .f32 × Vec F S8x128 .f32 × Vec F S8x128 .f32
  | 0, hn => firstLeaves m c ⟨0, hn⟩ (Nat.zero_mod _)
  | n + 1, hn =>
    if h0 : (n + 1) % 7 = 0 then firstLeaves m c ⟨n + 1, hn⟩ h0
    else laterLeaves m c ⟨n + 1, hn⟩ h0 (heldAfter c n (Nat.lt_of_succ_lt hn)).2.2.1 (heldAfter c n (Nat.lt_of_succ_lt hn)).2.2.2

theorem heldAfter_first (c : Dev nD) (t : Fin cfg0.N) (h0 : t.val % 7 = 0) :
    heldAfter m c t.val t.isLt = firstLeaves m c t h0 := by
  obtain ⟨n, hn⟩ := t
  cases n with
  | zero => exact rfl
  | succ n => exact (dif_pos h0).trans rfl

theorem heldAfter_later (c : Dev nD) (t : Fin cfg0.N) (h0 : ¬t.val % 7 = 0) :
    heldAfter m c t.val t.isLt = laterLeaves m c t h0 (heldAfter m c (t.val - 1) (Nat.lt_of_le_of_lt (Nat.sub_le _ _) t.isLt)).2.2.1 (heldAfter m c (t.val - 1) (Nat.lt_of_le_of_lt (Nat.sub_le _ _) t.isLt)).2.2.2 := by
  obtain ⟨n, hn⟩ := t
  cases n with
  | zero => exact absurd (Nat.zero_mod _) h0
  | succ n => exact (dif_neg h0).trans rfl

/-- What the region keeps between points: before the first point the accumulators at anything, afterwards at what
    the point before left; the generator register at some state throughout. -/
def carried (c : Dev nD) : (n : ℕ) → n ≤ cfg0.N → sProp 𝕄
  | 0, _ => Pipeline.ΦA spec0 c
  | n + 1, hn => iprop(iprop(owns (c : Thread nD τ) accS fullShare ((heldAfter m c n hn).2.2.1) ∗ owns (c : Thread nD τ) accQ fullShare ((heldAfter m c n hn).2.2.2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) accS fullShare ((heldAfter m c n hn).2.2.1) ∗ owns (c : Thread nD τ) accQ fullShare ((heldAfter m c n hn).2.2.2)) ∗ (∃ r, prngReg c r)) := rfl

theorem carried_pos (c : Dev nD) (n : ℕ) (h : n ≤ cfg0.N) (hz : n ≠ 0) :
    carried m c n h = iprop(iprop(owns (c : Thread nD τ) accS fullShare ((heldAfter m c (n - 1) (by omega)).2.2.1) ∗ owns (c : Thread nD τ) accQ fullShare ((heldAfter m c (n - 1) (by omega)).2.2.2)) ∗ (∃ r, prngReg c r)) := by
  cases n with
  | zero => exact absurd rfl hz
  | succ n => rfl

/-! ## The proof data of the region -/

/-- On core `c`: the arrays as the region finds them; after the body at point `t` the input's buffer at its block,
    the outputs' at what the recursion says; between points the accumulators as `carried`; nothing owed. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => (heldAfter m c t.val t.isLt).1
    | ⟨2, _⟩ => (heldAfter m c t.val t.isLt).2.1
  Φ t := carried m c t.val (Nat.le_of_lt_succ t.isLt)
  q _ := fullShare
  owed _ := 0

theorem A_eq (c : Dev nD) (w : Fin cfg0.W) : (dats m 0 c).A w = entryAt m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = (heldAfter m c t.val t.isLt).1 := by dsimp only [dats]
theorem after2 (c : Dev nD) (t : Fin cfg0.N) : (dats m 0 c).after 2 t = (heldAfter m c t.val t.isLt).2.1 := by dsimp only [dats]

theorem input_held (c : Dev nD) (t : Fin cfg0.N) (d) : (dats m 0 c).before 0 t d = blockAt m c 0 t :=
  input_held_of m (dats m 0 c) (A_eq m c 0) (after0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (xbuf t) fullShare ((dats m 0 c).before 0 t d))
    ∗ (∃ d, owns (c : Thread nD τ) (sbuf t) fullShare ((dats m 0 c).before 1 t d))
    ∗ (∃ d, owns (c : Thread nD τ) (qbuf t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input's buffer holds the argument's block; the point's number says which case it is
    in; the region hands over the accumulators (at anything before the first point, else at what the point before
    left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [input_held]
  rw [show (dats m 0 c).owesAt () t.succ = (dats m 0 c).owesAt () t.castSucc from rfl]
  rw [show (dats m 0 c).Φ t.succ = carried m c (t.val + 1) t.isLt from rfl, carried_succ]
  rw [show (dats m 0 c).leavesExact 0 t = owns (c : Thread nD τ) (xbuf t) fullShare ((dats m 0 c).after 0 t) from by
    unfold Dat.leavesExact; rw [live0 t], after0]
  rw [show (dats m 0 c).leavesExact 1 t = owns (c : Thread nD τ) (sbuf t) fullShare ((dats m 0 c).after 1 t) from by
    unfold Dat.leavesExact; rw [live1 t], after1]
  rw [show (dats m 0 c).leavesExact 2 t = owns (c : Thread nD τ) (qbuf t) fullShare ((dats m 0 c).after 2 t) from by
    unfold Dat.leavesExact; rw [live2 t], after2]
  have hN : t.val < 112 := lt_of_lt_of_eq t.isLt (show cfg0.N = 112 from N_0)
  by_cases h0 : t.val % 7 = 0
  · rw [heldAfter_first m c t h0]
    unfold firstLeaves; (try dsimp only)
    by_cases hz : t.val = 0
    · rw [carried_castSucc m c t, carried_zero m c _ _ hz, rest_eq]
      iintro ⟨⟨⟨HS0, HS1⟩, Hg⟩, Ho, ⟨%d0, H0⟩, ⟨%d1, H1⟩, ⟨%d2, H2⟩⟩
      iapply ((firstRun m c t h0).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (first_cover_accS m c t h0)
          · unfold owns; iexists _; isplitr
            swap; · iexact HS1
            ipureintro; exact View.read_writes_of_cover _ _ _ _ _ (first_cover_accQ m c t h0)
        iexact Hg
      isplitl [Ho]; · iexact Ho
      isplitl [H0]; · iexact H0
      isplitl [H1]
      · unfold owns; iexists _; isplitr
        swap; · iexact H1
        ipureintro; exact View.read_writes_of_cover _ _ _ _ _ (first_cover_outS m c t h0)
      · unfold owns; iexists _; isplitr
        swap; · iexact H2
        ipureintro; exact View.read_writes_of_cover _ _ _ _ _ (first_cover_outQ m c t h0)
    · rw [carried_castSucc m c t, carried_pos m c _ _ hz]
      iintro ⟨⟨⟨HS0, HS1⟩, Hg⟩, Ho, ⟨%d0, H0⟩, ⟨%d1, H1⟩, ⟨%d2, H2⟩⟩
      iapply ((firstRun m c t h0).2.2.2.2 Set.univ _)
      isplitl [H0]; · iexact H0
      isplitl [H1]; · iexists _; iexact H1
      isplitl [H2]; · iexists _; iexact H2
      isplitl [HS0]; · iexists _; iexact HS0
      isplitl [HS1]; · iexists _; iexact HS1
      iintro ⟨H0, ⟨%e1, H1⟩, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (first_cover_accS m c t h0)
          · unfold owns; iexists _; isplitr
            swap; · iexact HS1
            ipureintro; exact View.read_writes_of_cover _ _ _ _ _ (first_cover_accQ m c t h0)
        iexact Hg
      isplitl [Ho]; · iexact Ho
      isplitl [H0]; · iexact H0
      isplitl [H1]
      · unfold owns; iexists _; isplitr
        swap; · iexact H1
        ipureintro; exact View.read_writes_of_cover _ _ _ _ _ (first_cover_outS m c t h0)
      · unfold owns; iexists _; isplitr
        swap; · iexact H2
        ipureintro; exact View.read_writes_of_cover _ _ _ _ _ (first_cover_outQ m c t h0)
  · rw [heldAfter_later m c t h0]
    unfold laterLeaves; (try dsimp only)
    have hz : t.val ≠ 0 := fun e => h0 (by rw [e])
    rw [carried_castSucc m c t, carried_pos m c _ _ hz]
    iintro ⟨⟨⟨HS0, HS1⟩, Hg⟩, Ho, ⟨%d0, H0⟩, ⟨%d1, H1⟩, ⟨%d2, H2⟩⟩
    iapply ((laterRun m c t h0 _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (later_cover_accS m c t h0 _ _)
        · unfold owns; iexists _; isplitr
          swap; · iexact HS1
          ipureintro; exact View.read_writes_of_cover _ _ _ _ _ (later_cover_accQ m c t h0 _ _)
      iexact Hg
    isplitl [Ho]; · iexact Ho
    isplitl [H0]; · iexact H0
    isplitl [H1]
    · unfold owns; iexists _; isplitr
      swap; · iexact H1
      ipureintro; exact View.read_writes_of_cover _ _ _ _ _ (later_cover_outS m c t h0 _ _)
    · unfold owns; iexists _; isplitr
      swap; · iexact H2
      ipureintro; exact View.read_writes_of_cover _ _ _ _ _ (later_cover_outQ m c t h0 _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is what it keeps before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the accumulators' contents are forgotten. -/
theorem hout (c : Dev nD) : (dats m 0 c).Φ (Fin.last cfg0.N) ⊢ Pipeline.ΦA spec0 c := by
  have hne : (Fin.last cfg0.N).val ≠ 0 := by rw [Fin.val_last]; have : cfg0.N = 112 := N_0; omega
  rw [show (dats m 0 c).Φ (Fin.last cfg0.N) = carried m c (Fin.last cfg0.N).val (Nat.le_of_lt_succ (Fin.last cfg0.N).isLt) from rfl,
    carried_pos m c _ _ hne, rest_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of the program terminates, and in its final state every array of the region is at
    what the proof data's write-backs give and every other buffer at what the 68 operations compute from those. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := main_around m Variants.none) (hA := A_eq m) (hin := hin m) (hout := hout m)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Stats

end
-- ==== Proof.KernelIdealSetup.lean ====
/-
  The statistics kernel's launch, read around its region.

  The program is one region over a grid of 8 x 2 x 7 points followed by 68 host operations that combine the
  region's two [64, 256] results. A grid point (i, j, h) stages the block of the argument with rows 8i..8i+7 of
  axis 0, 128j..128j+127 of axis 1 and 8h..8h+7 of axis 2 (all 56 of axis 3), and the two output blocks (i, j).
  The third grid coordinate is the accumulation step: at h = 0 the two scratch accumulators are cleared, at every
  step the block's sums are added to them and both accumulators are copied to the output blocks.

  Here: the buffers' contents when the region is entered; that the operations after the region neither allocate,
  nor leave the buffers a continuation may touch, nor write one of the region's three arrays; the argument's block
  at a point, which the input's staging buffer holds at every point; the step condition in closed form
  (h = 0 exactly at the points whose number is a multiple of 7); that no window is ever idle; the names of the
  staging and scratch buffers a point works on; and that the frame claim follows from a run that names every
  array after the region.
-/
import proofs.«129450_j49847390437779_2_alg».proof.Proof.Gen.KernelIdeal.Launch
import proofs.«129450_j49847390437779_2_alg».proof.Proof.Gen.KernelIdeal.Skeleton
import proofs.«129450_j49847390437779_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- A core's buffer contents when the region is entered: nothing runs before it, so the launch contents. -/
abbrev entry0 (c : Dev nD) : Valuation τ sig (Elt F) := StableHlo.after (List.flatten []) (fun b => m (c, b))
/-- The same at a reference of the core. -/
abbrev entryAt (c : Dev nD) (b : Ref sig .tc) : Buf (Elt F) ((c : Thread nD τ).loc b) := entry0 m c (Proc.devRef .tc b)

theorem entryAt_arg (c : Dev nD) : entryAt m c main_arg0 = m ((c : Thread nD τ).loc main_arg0) := rfl

/-- None of the 68 operations after the region allocates a buffer. -/
theorem tail_fresh_all : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- An operation that writes exactly the buffer `r`, which is none of the region's three arrays, writes none of them. -/
theorem keeps_of {op : HloOp τ sig (Elt F)} (r : Ref sig .tc) (hw : op.writes = {Proc.devRef .tc r})
    (h : ∀ w : Fin cfg0.W, Pipeline.arrRef spec0 w ≠ r) :
    ∀ w : Fin cfg0.W, Proc.devRef (τ := τ) .tc (Pipeline.arrRef spec0 w) ∉ op.writes := by
  intro w; rw [hw, Finset.mem_singleton]; exact StableHlo.devRef_ne_of_ne (h w)

/-- Each of the 68 operations writes its own result buffer only: the argument and the region's two results stay. -/
theorem tail_keeps_all : (hostOps1 : List (HloOp τ sig (Elt F))).Forall fun op =>
    ∀ w : Fin cfg0.W, Proc.devRef (τ := τ) .tc (Pipeline.arrRef spec0 w) ∉ op.writes :=
  ⟨keeps_of main_cst rfl (fun w => by fin_cases w <;> decide),
   keeps_of main_v1 rfl (fun w => by fin_cases w <;> decide),
   keeps_of main_cst_0 rfl (fun w => by fin_cases w <;> decide),
   keeps_of main_v2 rfl (fun w => by fin_cases w <;> decide),
   keeps_of main_v3 rfl (fun w => by fin_cases w <;> decide),
   keeps_of main_cst_1 rfl (fun w => by fin_cases w <;> decide),
   keeps_of main_v4 rfl (fun w => by fin_cases w <;> decide),
   keeps_of main_cst_2 rfl (fun w => by fin_cases w <;> decide),
   keeps_of main_v5 rfl (fun w => by fin_cases w <;> decide),
   keeps_of main_v6 rfl (fun w => by fin_cases w <;> decide),
   keeps_of main_v7 rfl (fun w => by fin_cases w <;> decide),
   keeps_of main_v8 rfl (fun w => by fin_cases w <;> decide),
   keeps_of main_v9 rfl (fun w => by fin_cases w <;> decide),
   keeps_of main_cst_3 rfl (fun w => by fin_cases w <;> decide),
   keeps_of main_v10 rfl (fun w => by fin_cases w <;> decide),
   keeps_of main_v11 rfl (fun w => by fin_cases w <;> decide),
   keeps_of main_cst_4 rfl (fun w => by fin_cases w <;> decide),
   keeps_of main_v12 rfl (fun w => by fin_cases w <;> decide),
   keeps_of main_cst_5 rfl (fun w => by fin_cases w <;> decide),
   keeps_of main_v13 rfl (fun w => by fin_cases w <;> decide),
   keeps_of main_v14 rfl (fun w => by fin_cases w <;> decide),
   keeps_of main_cst_6 rfl (fun w => by fin_cases w <;> decide),
   keeps_of main_v15 rfl (fun w => by fin_cases w <;> decide),
   keeps_of main_v16 rfl (fun w => by fin_cases w <;> decide),
   keeps_of main_v17 rfl (fun w => by fin_cases w <;> decide),
   keeps_of main_v18 rfl (fun w => by fin_cases w <;> decide),
   keeps_of main_v19 rfl (fun w => by fin_cases w <;> decide),
   keeps_of main_cst_7 rfl (fun w => by fin_cases w <;> decide),
   keeps_of main_v20 rfl (fun w => by fin_cases w <;> decide),
   keeps_of main_v21 rfl (fun w => by fin_cases w <;> decide),
   keeps_of main_cst_8 rfl (fun w => by fin_cases w <;> decide),
   keeps_of main_v22 rfl (fun w => by fin_cases w <;> decide),
   keeps_of main_cst_9 rfl (fun w => by fin_cases w <;> decide),
   keeps_of main_v23 rfl (fun w => by fin_cases w <;> decide),
   keeps_of main_v24 rfl (fun w => by fin_cases w <;> decide),
   keeps_of main_cst_10 rfl (fun w => by fin_cases w <;> decide),
   keeps_of main_v25 rfl (fun w => by fin_cases w <;> decide),
   keeps_of main_v26 rfl (fun w => by fin_cases w <;> decide),
   keeps_of main_v27 rfl (fun w => by fin_cases w <;> decide),
   keeps_of main_v28 rfl (fun w => by fin_cases w <;> decide),
   keeps_of main_v29 rfl (fun w => by fin_cases w <;> decide),
   keeps_of main_cst_11 rfl (fun w => by fin_cases w <;> decide),
   keeps_of main_v30 rfl (fun w => by fin_cases w <;> decide),
   keeps_of main_v31 rfl (fun w => by fin_cases w <;> decide),
   keeps_of main_cst_12 rfl (fun w => by fin_cases w <;> decide),
   keeps_of main_v32 rfl (fun w => by fin_cases w <;> decide),
   keeps_of main_cst_13 rfl (fun w => by fin_cases w <;> decide),
   keeps_of main_v33 rfl (fun w => by fin_cases w <;> decide),
   keeps_of main_v34 rfl (fun w => by fin_cases w <;> decide),
   keeps_of main_cst_14 rfl (fun w => by fin_cases w <;> decide),
   keeps_of main_v35 rfl (fun w => by fin_cases w <;> decide),
   keeps_of main_v36 rfl (fun w => by fin_cases w <;> decide),
   keeps_of main_v37 rfl (fun w => by fin_cases w <;> decide),
   keeps_of main_v38 rfl (fun w => by fin_cases w <;> decide),
   keeps_of main_v39 rfl (fun w => by fin_cases w <;> decide),
   keeps_of main_cst_15 rfl (fun w => by fin_cases w <;> decide),
   keeps_of main_v40 rfl (fun w => by fin_cases w <;> decide),
   keeps_of main_v41 rfl (fun w => by fin_cases w <;> decide),
   keeps_of main_cst_16 rfl (fun w => by fin_cases w <;> decide),
   keeps_of main_v42 rfl (fun w => by fin_cases w <;> decide),
   keeps_of main_cst_17 rfl (fun w => by fin_cases w <;> decide),
   keeps_of main_v43 rfl (fun w => by fin_cases w <;> decide),
   keeps_of main_v44 rfl (fun w => by fin_cases w <;> decide),
   keeps_of main_cst_18 rfl (fun w => by fin_cases w <;> decide),
   keeps_of main_v45 rfl (fun w => by fin_cases w <;> decide),
   keeps_of main_v46 rfl (fun w => by fin_cases w <;> decide),
   keeps_of main_v47 rfl (fun w => by fin_cases w <;> decide),
   keeps_of main_v48 rfl (fun w => by fin_cases w <;> decide)⟩

/-- The program is its region continued by the 68 operations. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] (by simp only [List.Forall])
    (by simp only [List.Forall]) main_chain

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh_all) op hop

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_keeps_all) op hop

/-! ## The blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The input's staging buffer holds the argument's block of the point at every point, for any proof data whose
    array is the entry contents and whose body leaves the block in place. -/
theorem input_held_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim from a run that names the arrays -/

theorem frame_of (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (entryAt_arg m c)))) h

/-! ## The accumulation step -/

/-- The body's condition "this is the first accumulation step" from the grid coordinates. -/
abbrev firstStep (i : grid0.Coords) : Prop :=
  (Scalar.cmpi .ne (Scalar.extui (Scalar.cmpi .eq (BitVec.ofNat 32 (i 2).val) 0#32)) 0#32) = 1#1
/-- It holds exactly at the points whose number is a multiple of 7 (the third axis has 7 steps and runs fastest). -/
theorem firstStep_iff : ∀ t : Fin cfg0.N, firstStep (grid0.coords t) ↔ t.val % 7 = 0 :=
  (by decide +kernel : ∀ t : Fin grid0.N, firstStep (grid0.coords t) ↔ t.val % 7 = 0)

/-- No window is idle at any point: the input is read and both outputs are stored at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The buffers a point works on -/

/-- The staging buffers current at point `t`: the input block's, the sums' and the sums of squares'. -/
abbrev xbuf (t : Fin cfg0.N) : Memref sig .tc .vmem S8x128x8x56 .f32 := win0_0.stage (cfg0.slots t 0)
abbrev xbuf_whole (t : Fin cfg0.N) : (xbuf t).IsWhole := hstage0_0 ((cfg0.slots t 0).cast nbuf0_0)
abbrev sbuf (t : Fin cfg0.N) : Memref sig .tc .vmem S8x128 .f32 := win0_1.stage (cfg0.slots t 1)
abbrev sbuf_whole (t : Fin cfg0.N) : (sbuf t).IsWhole := hstage0_1 ((cfg0.slots t 1).cast nbuf0_1)
abbrev qbuf (t : Fin cfg0.N) : Memref sig .tc .vmem S8x128 .f32 := win0_2.stage (cfg0.slots t 2)
abbrev qbuf_whole (t : Fin cfg0.N) : (qbuf t).IsWhole := hstage0_2 ((cfg0.slots t 2).cast nbuf0_2)
/-- The two accumulators: the running sums and the running sums of squares. -/
abbrev accS : Memref sig .tc .vmem S8x128 .f32 := Memref.whole cc0_scratch0
abbrev accQ : Memref sig .tc .vmem S8x128 .f32 := Memref.whole cc0_scratch1
/-- Views through which the contents of the outputs' staging buffers and of the accumulators are stated. -/
abbrev outS : View sig .tc .vmem S8x128 .f32 := (Memref.whole cc0_stg1_0 : Memref sig .tc .vmem S8x128 .f32).view
abbrev outQ : View sig .tc .vmem S8x128 .f32 := (Memref.whole cc0_stg2_0 : Memref sig .tc .vmem S8x128 .f32).view
abbrev accSV : View sig .tc .vmem S8x128 .f32 := accS.view
abbrev accQV : View sig .tc .vmem S8x128 .f32 := accQ.view

/-- What the region may use beside its windows: the two accumulators at some contents and the generator register. -/
theorem rest_eq (c : Dev nD) :
    (Pipeline.ΦA spec0 c : sProp 𝕄)
      = iprop(iprop((∃ d, owns (c : Thread nD τ) accS fullShare d) ∗ (∃ d, owns (c : Thread nD τ) accQ fullShare d)) ∗ (∃ r, prngReg c r)) := by
  unfold Pipeline.ΦA; rw [scopedRest0_eq]; simp only [accS, accQ, owns_whole]; try rfl

end Cert.KernelIdeal.Stats

end
-- ==== Proof.KernelIdealRunFirst.lean ====
/-
  The kernel's body at a point of the first accumulation step (h = 0).

  Whatever the accumulators held, the body clears both, loads the point's block of the argument, adds the block's sums
  over its last two axes to the first accumulator and the sums of its squares to the second, and copies both
  accumulators into the outputs' staging buffers. The statement holds on any whole buffers: the input's at the block,
  the four others at anything; it names what the four are left with as the pieces the body stored, in store order,
  and keeps the input's contents.
-/
import proofs.«129450_j49847390437779_2_alg».proof.Proof.KernelIdealSetup

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when the step condition holds, with the stored pieces of the two outputs' buffers and of the two
    accumulators. -/
noncomputable def runFirst (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc : firstStep i)
    (x0 : Vec F S8x128x8x56 .f32) :
    Σ' (L1 : List (View.Piece (Elt F) S8x128 .f32)) (L2 : List (View.Piece (Elt F) S8x128 .f32)) (LS0 : List (View.Piece (Elt F) S8x128 .f32)), { LS1 : List (View.Piece (Elt F) S8x128 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%ds0, %fs0, -, HS0⟩, ⟨%ds1, %fs1, -, HS1⟩, Hk⟩
    obtain rfl := harg3.eq_unread hf0
    sl_exec (disch := first | exact hc)
    sl_step
    iapply Hk
    isplitl [H0]
    · iexists _; isplitr; · ipureintro; exact harg3.read_unread _
      iexact H0
    isplitl [H1]; · iexists _; iexact H1
    isplitl [H2]; · iexists _; iexact H2
    isplitl [HS0]; · iexists _; iexact HS0
    iexists _; iexact HS1

end Cert.KernelIdeal.Stats

end
-- ==== Proof.KernelIdealRunLater.lean ====
/-
  The kernel's body at a point of a later accumulation step (h > 0).

  The accumulators hold what the step before left. The body loads the point's block of the argument, adds the block's
  sums over its last two axes to the first accumulator and the sums of its squares to the second, and copies both
  accumulators into the outputs' staging buffers. As for the first step the statement is on any whole buffers and
  names what the four written buffers are left with as the stored pieces.
-/
import proofs.«129450_j49847390437779_2_alg».proof.Proof.KernelIdealRunFirst

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when the step condition fails, from accumulators at `xs0` and `xs1`. -/
noncomputable def runLater (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc : ¬firstStep i)
    (x0 : Vec F S8x128x8x56 .f32) (xs0 xs1 : Vec F S8x128 .f32) :
    Σ' (L1 : List (View.Piece (Elt F) S8x128 .f32)) (L2 : List (View.Piece (Elt F) S8x128 .f32)) (LS0 : List (View.Piece (Elt F) S8x128 .f32)), { LS1 : List (View.Piece (Elt F) S8x128 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg3.eq_unread hf0; obtain rfl := harg6.eq_unread hfs0; obtain rfl := harg7.eq_unread hfs1
    sl_exec (disch := first | exact hc)
    sl_step
    iapply Hk
    isplitl [H0]
    · iexists _; isplitr; · ipureintro; exact harg3.read_unread _
      iexact H0
    isplitl [H1]; · iexists _; iexact H1
    isplitl [H2]; · iexists _; iexact H2
    isplitl [HS0]; · iexists _; iexact HS0
    iexists _; iexact HS1

end Cert.KernelIdeal.Stats

end
-- ==== Proof.KernelIdealFrame.lean ====
/-
  The statistics kernel runs to its end, faults nowhere, and leaves its argument as it found it.

  What the four written buffers hold after each point is defined by recursion on the point's number: at a point of
  the first step (number divisible by 7) what the first-step run leaves, at any other point what the later-step run
  leaves from the accumulators as the point before left them. Between points the region keeps the two accumulators at
  exactly those contents; before the first point and after the last they are at anything. The body obligation at a
  point is the run of the point's case; the launch theorem for a region followed by host operations then gives a run of
  the whole program in which every array after the region is named, and the frame claim is its statement about the
  argument.
-/
import proofs.«129450_j49847390437779_2_alg».proof.Proof.KernelIdealRunLater

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The first-step run at point `t`: on the point's staging buffers, the accumulators, and the argument's block. -/
abbrev firstRun (c : Dev nD) (t : Fin cfg0.N) (h : t.val % 7 = 0) :=
  runFirst (F := F) c (grid0.coords t) (xbuf t) (xbuf_whole t) (sbuf t) (sbuf_whole t) (qbuf t) (qbuf_whole t) accS (Memref.isWhole_whole _) accQ (Memref.isWhole_whole _)
    ((firstStep_iff t).mpr h) (blockAt m c 0 t)
/-- The later-step run at point `t`, from accumulators at `xs0`, `xs1`. -/
abbrev laterRun (c : Dev nD) (t : Fin cfg0.N) (h : ¬t.val % 7 = 0) (xs0 xs1 : Vec F S8x128 .f32) :=
  runLater (F := F) c (grid0.coords t) (xbuf t) (xbuf_whole t) (sbuf t) (sbuf_whole t) (qbuf t) (qbuf_whole t) accS (Memref.isWhole_whole _) accQ (Memref.isWhole_whole _)
    (fun hc => h ((firstStep_iff t).mp hc)) (blockAt m c 0 t) xs0 xs1

/-- What a first-step point leaves in the sums' buffer, the squares' buffer and the two accumulators: the stored
    pieces read back. -/
def firstLeaves (c : Dev nD) (t : Fin cfg0.N) (h : t.val % 7 = 0) : Vec F S8x128 .f32 × Vec F S8x128 .f32 × Vec F S8x128 .f32 × Vec F S8x128 .f32 :=
  (outS.read (Elt F) (outS.writes (Elt F) outS.junk (firstRun m c t h).1),
   outQ.read (Elt F) (outQ.writes (Elt F) outQ.junk (firstRun m c t h).2.1),
   accSV.read (Elt F) (accSV.writes (Elt F) accSV.junk (firstRun m c t h).2.2.1),
   accQV.read (Elt F) (accQV.writes (Elt F) accQV.junk (firstRun m c t h).2.2.2.1))
/-- The same for a later-step point. -/
def laterLeaves (c : Dev nD) (t : Fin cfg0.N) (h : ¬t.val % 7 = 0) (xs0 xs1 : Vec F S8x128 .f32) : Vec F S8x128 .f32 × Vec F S8x128 .f32 × Vec F S8x128 .f32 × Vec F S8x128 .f32 :=
  (outS.read (Elt F) (outS.writes (Elt F) outS.junk (laterRun m c t h xs0 xs1).1),
   outQ.read (Elt F) (outQ.writes (Elt F) outQ.junk (laterRun m c t h xs0 xs1).2.1),
   accSV.read (Elt F) (accSV.writes (Elt F) accSV.junk (laterRun m c t h xs0 xs1).2.2.1),
   accQV.read (Elt F) (accQV.writes (Elt F) accQV.junk (laterRun m c t h xs0 xs1).2.2.2.1))

/-- In either case the pieces stored into each of the four buffers cover it (whole-buffer stores). -/
theorem first_cover_outS (c : Dev nD) (t : Fin cfg0.N) (h : t.val % 7 = 0) (y : S8x128.Idx) : ∃ pc ∈ (firstRun m c t h).1, y ∈ pc.1.set :=
  View.cover_of_tiledL (firstRun m c t h).1 S8x128.size (by sl_kernel_rfl) y
theorem first_cover_outQ (c : Dev nD) (t : Fin cfg0.N) (h : t.val % 7 = 0) (y : S8x128.Idx) : ∃ pc ∈ (firstRun m c t h).2.1, y ∈ pc.1.set :=
  View.cover_of_tiledL (firstRun m c t h).2.1 S8x128.size (by sl_kernel_rfl) y
theorem first_cover_accS (c : Dev nD) (t : Fin cfg0.N) (h : t.val % 7 = 0) (y : S8x128.Idx) : ∃ pc ∈ (firstRun m c t h).2.2.1, y ∈ pc.1.set :=
  View.cover_of_tiledL (firstRun m c t h).2.2.1 S8x128.size (by sl_kernel_rfl) y
theorem first_cover_accQ (c : Dev nD) (t : Fin cfg0.N) (h : t.val % 7 = 0) (y : S8x128.Idx) : ∃ pc ∈ (firstRun m c t h).2.2.2.1, y ∈ pc.1.set :=
  View.cover_of_tiledL (firstRun m c t h).2.2.2.1 S8x128.size (by sl_kernel_rfl) y
theorem later_cover_outS (c : Dev nD) (t : Fin cfg0.N) (h : ¬t.val % 7 = 0) (xs0 xs1 : Vec F S8x128 .f32) (y : S8x128.Idx) : ∃ pc ∈ (laterRun m c t h xs0 xs1).1, y ∈ pc.1.set :=
  View.cover_of_tiledL (laterRun m c t h xs0 xs1).1 S8x128.size (by sl_kernel_rfl) y
theorem later_cover_outQ (c : Dev nD) (t : Fin cfg0.N) (h : ¬t.val % 7 = 0) (xs0 xs1 : Vec F S8x128 .f32) (y : S8x128.Idx) : ∃ pc ∈ (laterRun m c t h xs0 xs1).2.1, y ∈ pc.1.set :=
  View.cover_of_tiledL (laterRun m c t h xs0 xs1).2.1 S8x128.size (by sl_kernel_rfl) y
theorem later_cover_accS (c : Dev nD) (t : Fin cfg0.N) (h : ¬t.val % 7 = 0) (xs0 xs1 : Vec F S8x128 .f32) (y : S8x128.Idx) : ∃ pc ∈ (laterRun m c t h xs0 xs1).2.2.1, y ∈ pc.1.set :=
  View.cover_of_tiledL (laterRun m c t h xs0 xs1).2.2.1 S8x128.size (by sl_kernel_rfl) y
theorem later_cover_accQ (c : Dev nD) (t : Fin cfg0.N) (h : ¬t.val % 7 = 0) (xs0 xs1 : Vec F S8x128 .f32) (y : S8x128.Idx) : ∃ pc ∈ (laterRun m c t h xs0 xs1).2.2.2.1, y ∈ pc.1.set :=
  View.cover_of_tiledL (laterRun m c t h xs0 xs1).2.2.2.1 S8x128.size (by sl_kernel_rfl) y

/-! ## The accumulation over the points -/

/-- What the sums' buffer, the squares' buffer and the two accumulators hold after the body at point number `n`. -/
def heldAfter (c : Dev nD) : (n : ℕ) → n < cfg0.N → Vec F S8x128 .f32 × Vec F S8x128 .f32 × Vec F S8x128 .f32 × Vec F S8x128 .f32
  | 0, hn => firstLeaves m c ⟨0, hn⟩ (Nat.zero_mod _)
  | n + 1, hn =>
    if h0 : (n + 1) % 7 = 0 then firstLeaves m c ⟨n + 1, hn⟩ h0
    else laterLeaves m c ⟨n + 1, hn⟩ h0 (heldAfter c n (Nat.lt_of_succ_lt hn)).2.2.1 (heldAfter c n (Nat.lt_of_succ_lt hn)).2.2.2

theorem heldAfter_first (c : Dev nD) (t : Fin cfg0.N) (h0 : t.val % 7 = 0) :
    heldAfter m c t.val t.isLt = firstLeaves m c t h0 := by
  obtain ⟨n, hn⟩ := t
  cases n with
  | zero => exact rfl
  | succ n => exact (dif_pos h0).trans rfl

theorem heldAfter_later (c : Dev nD) (t : Fin cfg0.N) (h0 : ¬t.val % 7 = 0) :
    heldAfter m c t.val t.isLt = laterLeaves m c t h0 (heldAfter m c (t.val - 1) (Nat.lt_of_le_of_lt (Nat.sub_le _ _) t.isLt)).2.2.1 (heldAfter m c (t.val - 1) (Nat.lt_of_le_of_lt (Nat.sub_le _ _) t.isLt)).2.2.2 := by
  obtain ⟨n, hn⟩ := t
  cases n with
  | zero => exact absurd (Nat.zero_mod _) h0
  | succ n => exact (dif_neg h0).trans rfl

/-- What the region keeps between points: before the first point the accumulators at anything, afterwards at what
    the point before left; the generator register at some state throughout. -/
def carried (c : Dev nD) : (n : ℕ) → n ≤ cfg0.N → sProp 𝕄
  | 0, _ => Pipeline.ΦA spec0 c
  | n + 1, hn => iprop(iprop(owns (c : Thread nD τ) accS fullShare ((heldAfter m c n hn).2.2.1) ∗ owns (c : Thread nD τ) accQ fullShare ((heldAfter m c n hn).2.2.2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) accS fullShare ((heldAfter m c n hn).2.2.1) ∗ owns (c : Thread nD τ) accQ fullShare ((heldAfter m c n hn).2.2.2)) ∗ (∃ r, prngReg c r)) := rfl

theorem carried_pos (c : Dev nD) (n : ℕ) (h : n ≤ cfg0.N) (hz : n ≠ 0) :
    carried m c n h = iprop(iprop(owns (c : Thread nD τ) accS fullShare ((heldAfter m c (n - 1) (by omega)).2.2.1) ∗ owns (c : Thread nD τ) accQ fullShare ((heldAfter m c (n - 1) (by omega)).2.2.2)) ∗ (∃ r, prngReg c r)) := by
  cases n with
  | zero => exact absurd rfl hz
  | succ n => rfl

/-! ## The proof data of the region -/

/-- On core `c`: the arrays as the region finds them; after the body at point `t` the input's buffer at its block,
    the outputs' at what the recursion says; between points the accumulators as `carried`; nothing owed. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => (heldAfter m c t.val t.isLt).1
    | ⟨2, _⟩ => (heldAfter m c t.val t.isLt).2.1
  Φ t := carried m c t.val (Nat.le_of_lt_succ t.isLt)
  q _ := fullShare
  owed _ := 0

theorem A_eq (c : Dev nD) (w : Fin cfg0.W) : (dats m 0 c).A w = entryAt m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = (heldAfter m c t.val t.isLt).1 := by dsimp only [dats]
theorem after2 (c : Dev nD) (t : Fin cfg0.N) : (dats m 0 c).after 2 t = (heldAfter m c t.val t.isLt).2.1 := by dsimp only [dats]

theorem input_held (c : Dev nD) (t : Fin cfg0.N) (d) : (dats m 0 c).before 0 t d = blockAt m c 0 t :=
  input_held_of m (dats m 0 c) (A_eq m c 0) (after0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (xbuf t) fullShare ((dats m 0 c).before 0 t d))
    ∗ (∃ d, owns (c : Thread nD τ) (sbuf t) fullShare ((dats m 0 c).before 1 t d))
    ∗ (∃ d, owns (c : Thread nD τ) (qbuf t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input's buffer holds the argument's block; the point's number says which case it is
    in; the region hands over the accumulators (at anything before the first point, else at what the point before
    left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [input_held]
  rw [show (dats m 0 c).owesAt () t.succ = (dats m 0 c).owesAt () t.castSucc from rfl]
  rw [show (dats m 0 c).Φ t.succ = carried m c (t.val + 1) t.isLt from rfl, carried_succ]
  rw [show (dats m 0 c).leavesExact 0 t = owns (c : Thread nD τ) (xbuf t) fullShare ((dats m 0 c).after 0 t) from by
    unfold Dat.leavesExact; rw [live0 t], after0]
  rw [show (dats m 0 c).leavesExact 1 t = owns (c : Thread nD τ) (sbuf t) fullShare ((dats m 0 c).after 1 t) from by
    unfold Dat.leavesExact; rw [live1 t], after1]
  rw [show (dats m 0 c).leavesExact 2 t = owns (c : Thread nD τ) (qbuf t) fullShare ((dats m 0 c).after 2 t) from by
    unfold Dat.leavesExact; rw [live2 t], after2]
  have hN : t.val < 112 := lt_of_lt_of_eq t.isLt (show cfg0.N = 112 from N_0)
  by_cases h0 : t.val % 7 = 0
  · rw [heldAfter_first m c t h0]
    unfold firstLeaves; (try dsimp only)
    by_cases hz : t.val = 0
    · rw [carried_castSucc m c t, carried_zero m c _ _ hz, rest_eq]
      iintro ⟨⟨⟨HS0, HS1⟩, Hg⟩, Ho, ⟨%d0, H0⟩, ⟨%d1, H1⟩, ⟨%d2, H2⟩⟩
      iapply ((firstRun m c t h0).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (first_cover_accS m c t h0)
          · unfold owns; iexists _; isplitr
            swap; · iexact HS1
            ipureintro; exact View.read_writes_of_cover _ _ _ _ _ (first_cover_accQ m c t h0)
        iexact Hg
      isplitl [Ho]; · iexact Ho
      isplitl [H0]; · iexact H0
      isplitl [H1]
      · unfold owns; iexists _; isplitr
        swap; · iexact H1
        ipureintro; exact View.read_writes_of_cover _ _ _ _ _ (first_cover_outS m c t h0)
      · unfold owns; iexists _; isplitr
        swap; · iexact H2
        ipureintro; exact View.read_writes_of_cover _ _ _ _ _ (first_cover_outQ m c t h0)
    · rw [carried_castSucc m c t, carried_pos m c _ _ hz]
      iintro ⟨⟨⟨HS0, HS1⟩, Hg⟩, Ho, ⟨%d0, H0⟩, ⟨%d1, H1⟩, ⟨%d2, H2⟩⟩
      iapply ((firstRun m c t h0).2.2.2.2 Set.univ _)
      isplitl [H0]; · iexact H0
      isplitl [H1]; · iexists _; iexact H1
      isplitl [H2]; · iexists _; iexact H2
      isplitl [HS0]; · iexists _; iexact HS0
      isplitl [HS1]; · iexists _; iexact HS1
      iintro ⟨H0, ⟨%e1, H1⟩, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (first_cover_accS m c t h0)
          · unfold owns; iexists _; isplitr
            swap; · iexact HS1
            ipureintro; exact View.read_writes_of_cover _ _ _ _ _ (first_cover_accQ m c t h0)
        iexact Hg
      isplitl [Ho]; · iexact Ho
      isplitl [H0]; · iexact H0
      isplitl [H1]
      · unfold owns; iexists _; isplitr
        swap; · iexact H1
        ipureintro; exact View.read_writes_of_cover _ _ _ _ _ (first_cover_outS m c t h0)
      · unfold owns; iexists _; isplitr
        swap; · iexact H2
        ipureintro; exact View.read_writes_of_cover _ _ _ _ _ (first_cover_outQ m c t h0)
  · rw [heldAfter_later m c t h0]
    unfold laterLeaves; (try dsimp only)
    have hz : t.val ≠ 0 := fun e => h0 (by rw [e])
    rw [carried_castSucc m c t, carried_pos m c _ _ hz]
    iintro ⟨⟨⟨HS0, HS1⟩, Hg⟩, Ho, ⟨%d0, H0⟩, ⟨%d1, H1⟩, ⟨%d2, H2⟩⟩
    iapply ((laterRun m c t h0 _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (later_cover_accS m c t h0 _ _)
        · unfold owns; iexists _; isplitr
          swap; · iexact HS1
          ipureintro; exact View.read_writes_of_cover _ _ _ _ _ (later_cover_accQ m c t h0 _ _)
      iexact Hg
    isplitl [Ho]; · iexact Ho
    isplitl [H0]; · iexact H0
    isplitl [H1]
    · unfold owns; iexists _; isplitr
      swap; · iexact H1
      ipureintro; exact View.read_writes_of_cover _ _ _ _ _ (later_cover_outS m c t h0 _ _)
    · unfold owns; iexists _; isplitr
      swap; · iexact H2
      ipureintro; exact View.read_writes_of_cover _ _ _ _ _ (later_cover_outQ m c t h0 _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is what it keeps before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the accumulators' contents are forgotten. -/
theorem hout (c : Dev nD) : (dats m 0 c).Φ (Fin.last cfg0.N) ⊢ Pipeline.ΦA spec0 c := by
  have hne : (Fin.last cfg0.N).val ≠ 0 := by rw [Fin.val_last]; have : cfg0.N = 112 := N_0; omega
  rw [show (dats m 0 c).Φ (Fin.last cfg0.N) = carried m c (Fin.last cfg0.N).val (Nat.le_of_lt_succ (Fin.last cfg0.N).isLt) from rfl,
    carried_pos m c _ _ hne, rest_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of the program terminates, and in its final state every array of the region is at
    what the proof data's write-backs give and every other buffer at what the 68 operations compute from those. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := main_around m Variants.none) (hA := A_eq m) (hin := hin m) (hout := hout m)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Stats

end
-- ==== Proof.KernelIdealPieces.lean ====
/-
  What a point leaves, as values.

  The pieces the body stored (found when the body was run) are whole-buffer stores, so reading them back gives the last
  stored payload. At a later step the sums' accumulator is left at `acc + (the block's sums)` — the skeleton's third
  payload of the block and the old accumulator — and the squares' accumulator at the fourth payload; the outputs'
  staging buffers receive copies of the two accumulators. At a first step the same with the cleared accumulators (the
  first and second payloads, blocks of zeros) in place of the old ones.
-/
import proofs.«129450_j49847390437779_2_alg».proof.Proof.KernelIdealFrame
import Idealize.ShloMosaic.Lib.Pipeline.Value

set_option maxRecDepth 16384

noncomputable section

namespace Cert.KernelIdeal.Stats

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## A later step -/

theorem later_outS (c : Dev nD) (t : Fin cfg0.N) (h : ¬t.val % 7 = 0) (xs0 xs1 : Vec F S8x128 .f32) :
    (laterLeaves m c t h xs0 xs1).1 = k0_pay3 (blockAt m c 0 t) xs0 := by
  unfold laterLeaves; dsimp only
  rw [View.read_writes_eq_canon _ _ _ (later_cover_outS m c t h xs0 xs1)]
  unfold laterRun runLater; dsimp only
  sl_unfold_words
  simp only [View.canon_cons_unit_zero (S := S8x128) hz2, View.readCov_cons_toLoadRect, View.readAt_eq_ld, Memref.IsWhole.read_unread,
    View.ld_unit_zero (S := S8x128) hz2, View.ld_unit_zero (S := S8x128x8x56) hz4]
  exact congrArg (k0_pay3 (blockAt m c 0 t)) ((Memref.isWhole_whole _ : accS.IsWhole).read_unread xs0)

theorem later_outQ (c : Dev nD) (t : Fin cfg0.N) (h : ¬t.val % 7 = 0) (xs0 xs1 : Vec F S8x128 .f32) :
    (laterLeaves m c t h xs0 xs1).2.1 = k0_pay4 (blockAt m c 0 t) xs1 := by
  unfold laterLeaves; dsimp only
  rw [View.read_writes_eq_canon _ _ _ (later_cover_outQ m c t h xs0 xs1)]
  unfold laterRun runLater; dsimp only
  sl_unfold_words
  simp only [View.canon_cons_unit_zero (S := S8x128) hz2, View.readCov_cons_toLoadRect, View.readAt_eq_ld, Memref.IsWhole.read_unread,
    View.ld_unit_zero (S := S8x128) hz2, View.ld_unit_zero (S := S8x128x8x56) hz4]
  exact congrArg (k0_pay4 (blockAt m c 0 t)) ((Memref.isWhole_whole _ : accQ.IsWhole).read_unread xs1)

theorem later_accS (c : Dev nD) (t : Fin cfg0.N) (h : ¬t.val % 7 = 0) (xs0 xs1 : Vec F S8x128 .f32) :
    (laterLeaves m c t h xs0 xs1).2.2.1 = k0_pay3 (blockAt m c 0 t) xs0 := by
  unfold laterLeaves; dsimp only
  rw [View.read_writes_eq_canon _ _ _ (later_cover_accS m c t h xs0 xs1)]
  unfold laterRun runLater; dsimp only
  sl_unfold_words
  simp only [View.canon_cons_unit_zero (S := S8x128) hz2, View.readCov_cons_toLoadRect, View.readAt_eq_ld, Memref.IsWhole.read_unread,
    View.ld_unit_zero (S := S8x128) hz2, View.ld_unit_zero (S := S8x128x8x56) hz4]
  exact congrArg (k0_pay3 (blockAt m c 0 t)) ((Memref.isWhole_whole _ : accS.IsWhole).read_unread xs0)

theorem later_accQ (c : Dev nD) (t : Fin cfg0.N) (h : ¬t.val % 7 = 0) (xs0 xs1 : Vec F S8x128 .f32) :
    (laterLeaves m c t h xs0 xs1).2.2.2 = k0_pay4 (blockAt m c 0 t) xs1 := by
  unfold laterLeaves; dsimp only
  rw [View.read_writes_eq_canon _ _ _ (later_cover_accQ m c t h xs0 xs1)]
  unfold laterRun runLater; dsimp only
  sl_unfold_words
  simp only [View.canon_cons_unit_zero (S := S8x128) hz2, View.readCov_cons_toLoadRect, View.readAt_eq_ld, Memref.IsWhole.read_unread,
    View.ld_unit_zero (S := S8x128) hz2, View.ld_unit_zero (S := S8x128x8x56) hz4]
  exact congrArg (k0_pay4 (blockAt m c 0 t)) ((Memref.isWhole_whole _ : accQ.IsWhole).read_unread xs1)

/-! ## A first step -/

theorem first_outS (c : Dev nD) (t : Fin cfg0.N) (h : t.val % 7 = 0) :
    (firstLeaves m c t h).1 = k0_pay3 (blockAt m c 0 t) (k0_pay1 (F := F)) := by
  unfold firstLeaves; dsimp only
  rw [View.read_writes_eq_canon _ _ _ (first_cover_outS m c t h)]
  unfold firstRun runFirst; dsimp only
  sl_unfold_words
  simp only [View.canon_cons_unit_zero (S := S8x128) hz2, View.readCov_cons_toLoadRect, View.readAt_eq_ld, Memref.IsWhole.read_unread,
    View.ld_unit_zero (S := S8x128) hz2, View.ld_unit_zero (S := S8x128x8x56) hz4]

theorem first_outQ (c : Dev nD) (t : Fin cfg0.N) (h : t.val % 7 = 0) :
    (firstLeaves m c t h).2.1 = k0_pay4 (blockAt m c 0 t) (k0_pay2 (F := F)) := by
  unfold firstLeaves; dsimp only
  rw [View.read_writes_eq_canon _ _ _ (first_cover_outQ m c t h)]
  unfold firstRun runFirst; dsimp only
  sl_unfold_words
  simp only [View.canon_cons_unit_zero (S := S8x128) hz2, View.readCov_cons_toLoadRect, View.readAt_eq_ld, Memref.IsWhole.read_unread,
    View.ld_unit_zero (S := S8x128) hz2, View.ld_unit_zero (S := S8x128x8x56) hz4]

theorem first_accS (c : Dev nD) (t : Fin cfg0.N) (h : t.val % 7 = 0) :
    (firstLeaves m c t h).2.2.1 = k0_pay3 (blockAt m c 0 t) (k0_pay1 (F := F)) := by
  unfold firstLeaves; dsimp only
  rw [View.read_writes_eq_canon _ _ _ (first_cover_accS m c t h)]
  unfold firstRun runFirst; dsimp only
  sl_unfold_words
  simp only [View.canon_cons_unit_zero (S := S8x128) hz2, View.readCov_cons_toLoadRect, View.readAt_eq_ld, Memref.IsWhole.read_unread,
    View.ld_unit_zero (S := S8x128) hz2, View.ld_unit_zero (S := S8x128x8x56) hz4]

theorem first_accQ (c : Dev nD) (t : Fin cfg0.N) (h : t.val % 7 = 0) :
    (firstLeaves m c t h).2.2.2 = k0_pay4 (blockAt m c 0 t) (k0_pay2 (F := F)) := by
  unfold firstLeaves; dsimp only
  rw [View.read_writes_eq_canon _ _ _ (first_cover_accQ m c t h)]
  unfold firstRun runFirst; dsimp only
  sl_unfold_words
  simp only [View.canon_cons_unit_zero (S := S8x128) hz2, View.readCov_cons_toLoadRect, View.readAt_eq_ld, Memref.IsWhole.read_unread,
    View.ld_unit_zero (S := S8x128) hz2, View.ld_unit_zero (S := S8x128x8x56) hz4]

end Cert.KernelIdeal.Stats

end
-- ==== Proof.StatsSums.lean ====
/-
  Sums over the extended reals that the statistics kernel and its reference arrange differently.

  The reference sums a [64, 256, 56, 56] array over its last two axes in one reduction; the kernel visits the 56 rows
  of axis 2 in 7 steps of 8 rows, at each step summing an [8, 128, 8, 56] block first over its last axis and then
  over its third, and adds the step's result to a running total that starts at zero. Addition of extended reals is
  commutative and associative (also at the infinities), so the two agree; nothing here needs the summands to be finite.

  * `hostSum_two_axes`: the reduction over axes 2 and 3, read at (b, ch), is the initial value plus the double sum
    over the two dropped coordinates.
  * `sum_rows`: a sum over 56 rows is the sum over 7 steps of the sums over the 8 rows of a step.
  * `running_total`: a sequence that restarts from zero at every multiple of 7 and otherwise adds the next term to its
    predecessor is, at position n, the sum of the terms since the last multiple of 7.
  * `block_sums`: the two lane reductions of a block, read at (p, q), are the double sum over the block's last two
    coordinates.
-/
import Idealize.ShloMosaic.PureOps.Ideal.Laws
import Idealize.ShloMosaic.Lib.ValueIdx

noncomputable section

namespace Cert.StatsSums

open Idealize.ShloMosaic Idealize.ShloMosaic.ValueIdx

/-- The argument's shape, the shape of its sums over the last two axes, a block, and a block less one and two axes. -/
abbrev Arr : Shape := ⟨4, ![64, 256, 56, 56]⟩
abbrev Sums : Shape := ⟨2, ![64, 256]⟩
abbrev Blk : Shape := ⟨4, ![8, 128, 8, 56]⟩
abbrev Blk3 : Shape := ⟨3, ![8, 128, 8]⟩
abbrev Blk2 : Shape := ⟨2, ![8, 128]⟩

/-- The indices of the argument that lie over (b, ch) are those with first two coordinates b and ch. -/
theorem over_eq (h' : Arr.ReducesTo [2, 3] Sums) (b : Fin 64) (ch : Fin 256) :
    (Finset.univ.filter fun i : Arr.Idx => h'.drop i = ix2 b ch)
      = (Finset.univ : Finset (Fin 56 × Fin 56)).image (fun p => ix4 b ch p.1 p.2) := by
  ext i
  simp only [Finset.mem_filter, Finset.mem_univ, true_and, Finset.mem_image]
  constructor
  · intro hi
    have h0 : (i 0).val = b.val := congrArg Fin.val (congrFun hi 0)
    have h1 : (i 1).val = ch.val := congrArg Fin.val (congrFun hi 1)
    refine ⟨(i 2, i 3), ?_⟩
    funext a
    match a with
    | ⟨0, _⟩ => exact Fin.ext h0.symm
    | ⟨1, _⟩ => exact Fin.ext h1.symm
    | ⟨2, _⟩ => rfl
    | ⟨3, _⟩ => rfl
  · rintro ⟨⟨hh, w⟩, rfl⟩
    funext a
    match a with
    | ⟨0, _⟩ => exact Fin.ext rfl
    | ⟨1, _⟩ => exact Fin.ext rfl

theorem ix4_tail_inj (b : Fin 64) (ch : Fin 256) :
    Function.Injective (fun p : Fin 56 × Fin 56 => (ix4 b ch p.1 p.2 : Arr.Idx)) := by
  intro p q hpq
  have h2 : p.1 = q.1 := congrFun hpq 2
  have h3 : p.2 = q.2 := congrFun hpq 3
  exact Prod.ext h2 h3

/-- The host's sum over axes 2 and 3 at (b, ch): the initial value plus the double sum over rows and lanes. -/
theorem hostSum_two_axes (h' : Arr.ReducesTo [2, 3] Sums) (x : Arr.Idx → EReal) (init : EReal) (b : Fin 64) (ch : Fin 256) :
    Ideal.hostReduceAdd h' x init (ix2 b ch) = init + ∑ hh : Fin 56, ∑ w : Fin 56, x (ix4 b ch hh w) := by
  unfold Ideal.hostReduceAdd
  rw [over_eq h' b ch, Finset.sum_image (fun p _ q _ hpq => ix4_tail_inj b ch hpq), Fintype.sum_prod_type]

/-- 56 rows are 7 steps of 8 rows. -/
theorem sum_rows {M : Type*} [AddCommMonoid M] (f : Fin 56 → M) :
    ∑ hh : Fin 56, f hh
      = ∑ k : Fin 7, ∑ r : Fin 8, f ⟨8 * k.val + r.val, by have := k.isLt; have := r.isLt; omega⟩ := by
  rw [← Equiv.sum_comp (finProdFinEquiv : Fin 7 × Fin 8 ≃ Fin 56) f, Fintype.sum_prod_type]
  refine Finset.sum_congr rfl fun k _ => Finset.sum_congr rfl fun r _ => congrArg f (Fin.ext ?_)
  show r.val + 8 * k.val = 8 * k.val + r.val
  omega

/-- A total that restarts from zero at the multiples of 7 and otherwise adds the next term: at position `n` it is the
    sum of the terms from the last multiple of 7 up to `n`. -/
theorem running_total {M : Type*} [AddCommMonoid M] (N : ℕ) (a acc : ℕ → M)
    (hfirst : ∀ n, n < N → n % 7 = 0 → acc n = 0 + a n)
    (hlater : ∀ n, n < N → ¬n % 7 = 0 → acc n = acc (n - 1) + a n) :
    ∀ n, n < N → acc n = ∑ k ∈ Finset.range (n % 7 + 1), a (7 * (n / 7) + k) := by
  intro n
  induction n with
  | zero =>
    intro hn
    rw [hfirst 0 hn rfl]
    simp
  | succ n ih =>
    intro hn
    by_cases h : (n + 1) % 7 = 0
    · rw [hfirst (n + 1) hn h, h]
      have e : 7 * ((n + 1) / 7) = n + 1 := by omega
      simp [e]
    · rw [hlater (n + 1) hn h, show n + 1 - 1 = n from rfl, ih (by omega)]
      have e1 : (n + 1) % 7 = n % 7 + 1 := by omega
      have e2 : (n + 1) / 7 = n / 7 := by omega
      rw [e1, e2, Finset.sum_range_succ (n := n % 7 + 1)]
      congr 2
      omega

/-- Over (p, q) and row r, the lane w of a block: the index the two lane reductions read. -/
theorem lift_lift (h3 : Blk.Reduces [3] Blk3) (h2 : Blk3.Reduces [2] Blk2) (p : Fin 8) (q : Fin 128) (r : Fin 8) (w : Fin 56) :
    h3.lift (h2.lift (ix2 p q) r) w = ix4 p q r w := by
  funext a
  match a with
  | ⟨0, _⟩ => exact Fin.ext rfl
  | ⟨1, _⟩ => exact Fin.ext rfl
  | ⟨2, _⟩ => exact Fin.ext rfl
  | ⟨3, _⟩ => exact Fin.ext rfl

/-- A block summed over its last axis and then over its third, read at (p, q): the double sum over rows and lanes. -/
theorem block_sums (src : FVec Ideal Blk .f32) (h3 : Blk.Reduces [3] Blk3) (h2 : Blk3.Reduces [2] Blk2)
    (hφ : FKind.Formats .f32) (hacc : (0x00000000#32 : BitVec 32) = FKind.add.neutral .f32 hφ)
    (hφ' : FKind.Formats .f32) (hacc' : (0x00000000#32 : BitVec 32) = FKind.add.neutral .f32 hφ') (p : Fin 8) (q : Fin 128) :
    multiReduction .add [2] Blk2 (multiReduction .add [3] Blk3 src 0x00000000#32 h3 hφ hacc) 0x00000000#32 h2 hφ' hacc' (ix2 p q)
      = ∑ r : Fin 8, ∑ w : Fin 56, src (ix4 p q r w) := by
  refine (Ideal.multiReduction_add_single _ 0x00000000#32 h2 hφ' hacc' (ix2 p q)).trans ?_
  refine Finset.sum_congr rfl fun r _ => ?_
  refine (Ideal.multiReduction_add_single src 0x00000000#32 h3 hφ hacc (h2.lift (ix2 p q) r)).trans ?_
  exact Finset.sum_congr rfl fun w _ => congrArg src (lift_lift h3 h2 p q r w)

/-! ## The kernel's steps over one (batch, channel) entry -/

/-- An array on the argument's shape read at natural-number coordinates, zero outside its extents. -/
def ext (x : Arr.Idx → EReal) (a b c d : ℕ) : EReal :=
  if h : a < 64 ∧ b < 256 ∧ c < 56 ∧ d < 56 then x (ix4 ⟨a, h.1⟩ ⟨b, h.2.1⟩ ⟨c, h.2.2.1⟩ ⟨d, h.2.2.2⟩) else 0

theorem ext_of_lt (x : Arr.Idx → EReal) {a b c d : ℕ} (ha : a < 64) (hb : b < 256) (hc : c < 56) (hd : d < 56) :
    ext x a b c d = x (ix4 ⟨a, ha⟩ ⟨b, hb⟩ ⟨c, hc⟩ ⟨d, hd⟩) := dif_pos ⟨ha, hb, hc, hd⟩

/-- What grid point number `n` adds at (p, q) of its output block: point `n` is at block row n / 14, block column
    (n / 7) mod 2 and step n mod 7, and its block holds rows 8 (n mod 7) .. 8 (n mod 7) + 7 of axis 2. -/
def stepSum (x : Arr.Idx → EReal) (n : ℕ) (p : Fin 8) (q : Fin 128) : EReal :=
  ∑ r : Fin 8, ∑ w : Fin 56, ext x (8 * (n / 14) + p.val) (128 * (n / 7 % 2) + q.val) (8 * (n % 7) + r.val) w.val

/-- At the last step of a block the seven steps' sums together are the sum over all 56 rows and 56 lanes. -/
theorem seven_steps (x : Arr.Idx → EReal) (n : ℕ) (hn : n < 112) (h6 : n % 7 = 6) (p : Fin 8) (q : Fin 128) :
    ∑ k ∈ Finset.range (n % 7 + 1), stepSum x (7 * (n / 7) + k) p q
      = ∑ hh : Fin 56, ∑ w : Fin 56,
          x (ix4 ⟨8 * (n / 14) + p.val, by have := p.isLt; omega⟩ ⟨128 * (n / 7 % 2) + q.val, by have := q.isLt; omega⟩ hh w) := by
  rw [h6, Finset.sum_range, sum_rows]
  refine Finset.sum_congr rfl fun k _ => ?_
  unfold stepSum
  refine Finset.sum_congr rfl fun r _ => Finset.sum_congr rfl fun w _ => ?_
  have hk := k.isLt; have hr := r.isLt; have hp := p.isLt; have hq := q.isLt
  rw [ext_of_lt x (by omega) (by omega) (by omega) w.isLt]
  refine congrArg x ?_
  funext a
  match a with
  | ⟨0, _⟩ => exact Fin.ext (by show 8 * ((7 * (n / 7) + k.val) / 14) + p.val = 8 * (n / 14) + p.val; omega)
  | ⟨1, _⟩ => exact Fin.ext (by show 128 * ((7 * (n / 7) + k.val) / 7 % 2) + q.val = 128 * (n / 7 % 2) + q.val; omega)
  | ⟨2, _⟩ => exact Fin.ext (by show 8 * ((7 * (n / 7) + k.val) % 7) + r.val = 8 * k.val + r.val; omega)
  | ⟨3, _⟩ => rfl

end Cert.StatsSums

end
-- ==== Proof.KernelIdealSteps.lean ====
/-
  The accumulators after each point, at the exact real numbers.

  Read at the extended reals the third payload is `acc + (the block's double sum over its last two axes)` and the
  fourth the same for the squares; the cleared accumulators are zero. The block of point number `n` is the part of
  the argument with rows 8 (n / 14) .. of axis 0, 128 ((n / 7) mod 2) .. of axis 1 and 8 (n mod 7) .. of axis 2. So
  the sums' accumulator restarts from zero at every multiple of 7 and otherwise adds the point's step sum to what the
  point before left, and after point `n` it holds the step sums since the last multiple of 7; likewise the squares'.
  The outputs' staging buffers always hold copies of the accumulators.
-/
import proofs.«129450_j49847390437779_2_alg».proof.Proof.KernelIdealPieces
import proofs.«129450_j49847390437779_2_alg».proof.Proof.StatsSums
import Idealize.ShloMosaic.Lib.ValueIdx
import Idealize.ShloMosaic.PureOps.Ideal.Laws

set_option maxRecDepth 16384

noncomputable section

namespace Cert.KernelIdeal.Stats

open Cert.KernelIdeal Cert.KernelIdeal.Gen Cert.StatsSums
open Idealize.ShloMosaic Idealize.ShloMosaic.TcCoe Idealize.ShloMosaic.ValueIdx Idealize.SL.Sem

variable (m : (ℓ : Loc nD τ sig) → Buf (Elt Ideal) ℓ)

/-! ## The payloads at the extended reals -/

theorem cleared_sums (i : S8x128.Idx) : k0_pay1 (F := Ideal) i = 0 := by
  unfold k0_pay1; simp only [shapeCast_self]; exact Ideal.ofBits_zero_f32

theorem cleared_squares (i : S8x128.Idx) : k0_pay2 (F := Ideal) i = 0 := by
  unfold k0_pay2; simp only [shapeCast_self]; exact Ideal.ofBits_zero_f32

theorem added_sums (x : Vec Ideal S8x128x8x56 .f32) (acc : Vec Ideal S8x128 .f32) (p : Fin 8) (q : Fin 128) :
    k0_pay3 (F := Ideal) x acc (ix2 p q) = acc (ix2 p q) + ∑ r : Fin 8, ∑ w : Fin 56, x (ix4 p q r w) := by
  unfold k0_pay3; simp only [shapeCast_self]
  exact congrArg (fun z => acc (ix2 p q) + z) (block_sums x _ _ _ _ _ _ p q)

theorem added_squares (x : Vec Ideal S8x128x8x56 .f32) (acc : Vec Ideal S8x128 .f32) (p : Fin 8) (q : Fin 128) :
    k0_pay4 (F := Ideal) x acc (ix2 p q) = acc (ix2 p q) + ∑ r : Fin 8, ∑ w : Fin 56, x (ix4 p q r w) * x (ix4 p q r w) := by
  unfold k0_pay4; simp only [shapeCast_self]
  exact congrArg (fun z => acc (ix2 p q) + z) (block_sums (mulf x x) _ _ _ _ _ _ p q)

/-! ## The block of a point -/

/-- The argument array on core `c`, and the block of it that point `t` stages, as arrays of extended reals. -/
abbrev argArr (c : Dev nD) : Arr.Idx → EReal := (m ((c : Thread nD τ).loc main_arg0))
abbrev blk (c : Dev nD) (t : Fin cfg0.N) : Blk.Idx → EReal := blockAt m c 0 t

/-- The input window's block index at point `t`, decided over the grid. -/
theorem x_index : ∀ t : Fin cfg0.N, win0_0.index t 0 = t.val / 14 ∧ win0_0.index t 1 = t.val / 7 % 2
      ∧ win0_0.index t 2 = t.val % 7 ∧ win0_0.index t 3 = 0 :=
  (by decide +kernel : ∀ t : Fin grid0.N, win0_0.index t 0 = t.val / 14 ∧ win0_0.index t 1 = t.val / 7 % 2
      ∧ win0_0.index t 2 = t.val % 7 ∧ win0_0.index t 3 = 0)

/-- The block of point `t` at (p, q, r, w) is the argument at the block's offsets plus (p, q, r, w). -/
theorem block_read (c : Dev nD) (t : Fin cfg0.N) (p : Fin 8) (q : Fin 128) (r : Fin 8) (w : Fin 56) :
    blk m c t (ix4 p q r w)
      = ext (argArr m c) (8 * (t.val / 14) + p.val) (128 * (t.val / 7 % 2) + q.val) (8 * (t.val % 7) + r.val) w.val := by
  have ht : t.val < 112 := lt_of_lt_of_eq t.isLt N_0
  obtain ⟨i0, i1, i2, i3⟩ := x_index t
  have hp := p.isLt; have hq := q.isLt; have hr := r.isLt
  rw [ext_of_lt _ (by omega) (by omega) (by omega) w.isLt]
  unfold blk blockAt
  rw [View.read_apply]
  show entryAt m c main_arg0 _ = _
  rw [entryAt_arg]
  refine congrArg (m ((c : Thread nD τ).loc main_arg0)) ?_
  funext a
  apply Fin.ext
  match a with
  | ⟨0, _⟩ => show win0_0.index t 0 * 8 + 1 * p.val = 8 * (t.val / 14) + p.val; rw [i0]; omega
  | ⟨1, _⟩ => show win0_0.index t 1 * 128 + 1 * q.val = 128 * (t.val / 7 % 2) + q.val; rw [i1]; omega
  | ⟨2, _⟩ => show win0_0.index t 2 * 8 + 1 * r.val = 8 * (t.val % 7) + r.val; rw [i2]; omega
  | ⟨3, _⟩ => show win0_0.index t 3 * 56 + 1 * w.val = w.val; rw [i3]; omega

/-- The squares of the argument, as an array. -/
abbrev squares (c : Dev nD) : Arr.Idx → EReal := fun i => argArr m c i * argArr m c i

theorem block_read_sq (c : Dev nD) (t : Fin cfg0.N) (p : Fin 8) (q : Fin 128) (r : Fin 8) (w : Fin 56) :
    blk m c t (ix4 p q r w) * blk m c t (ix4 p q r w)
      = ext (squares m c) (8 * (t.val / 14) + p.val) (128 * (t.val / 7 % 2) + q.val) (8 * (t.val % 7) + r.val) w.val := by
  have ht : t.val < 112 := lt_of_lt_of_eq t.isLt N_0
  have hp := p.isLt; have hq := q.isLt; have hr := r.isLt
  rw [block_read, ext_of_lt _ (by omega) (by omega) (by omega) w.isLt, ext_of_lt _ (by omega) (by omega) (by omega) w.isLt]

/-! ## The running totals -/

/-- The sums' accumulator after point number `n`, at (p, q); zero past the grid. -/
def sumsAt (c : Dev nD) (p : Fin 8) (q : Fin 128) (n : ℕ) : EReal :=
  if h : n < cfg0.N then (heldAfter m c n h).2.2.1 (ix2 p q) else 0
/-- The squares' accumulator likewise. -/
def squaresAt (c : Dev nD) (p : Fin 8) (q : Fin 128) (n : ℕ) : EReal :=
  if h : n < cfg0.N then (heldAfter m c n h).2.2.2 (ix2 p q) else 0

theorem sumsAt_total (c : Dev nD) (p : Fin 8) (q : Fin 128) :
    ∀ n, n < 112 → sumsAt m c p q n = ∑ k ∈ Finset.range (n % 7 + 1), stepSum (argArr m c) (7 * (n / 7) + k) p q := by
  refine running_total 112 (fun n => stepSum (argArr m c) n p q) (sumsAt m c p q) ?_ ?_
  · intro n hn h0
    have hN : n < cfg0.N := lt_of_lt_of_eq hn N_0.symm
    unfold sumsAt
    rw [dif_pos hN, heldAfter_first m c ⟨n, hN⟩ h0, first_accS, added_sums, cleared_sums]
    refine congrArg (fun z => (0 : EReal) + z) ?_
    unfold stepSum
    exact Finset.sum_congr rfl fun r _ => Finset.sum_congr rfl fun w _ => block_read m c ⟨n, hN⟩ p q r w
  · intro n hn h0
    have hN : n < cfg0.N := lt_of_lt_of_eq hn N_0.symm
    have hN1 : n - 1 < cfg0.N := lt_of_lt_of_eq (by omega) N_0.symm
    unfold sumsAt
    rw [dif_pos hN, dif_pos hN1, heldAfter_later m c ⟨n, hN⟩ h0, later_accS, added_sums]
    refine congrArg (fun z => (heldAfter m c (n - 1) hN1).2.2.1 (ix2 p q) + z) ?_
    unfold stepSum
    exact Finset.sum_congr rfl fun r _ => Finset.sum_congr rfl fun w _ => block_read m c ⟨n, hN⟩ p q r w

theorem squaresAt_total (c : Dev nD) (p : Fin 8) (q : Fin 128) :
    ∀ n, n < 112 → squaresAt m c p q n = ∑ k ∈ Finset.range (n % 7 + 1), stepSum (squares m c) (7 * (n / 7) + k) p q := by
  refine running_total 112 (fun n => stepSum (squares m c) n p q) (squaresAt m c p q) ?_ ?_
  · intro n hn h0
    have hN : n < cfg0.N := lt_of_lt_of_eq hn N_0.symm
    unfold squaresAt
    rw [dif_pos hN, heldAfter_first m c ⟨n, hN⟩ h0, first_accQ, added_squares, cleared_squares]
    refine congrArg (fun z => (0 : EReal) + z) ?_
    unfold stepSum
    exact Finset.sum_congr rfl fun r _ => Finset.sum_congr rfl fun w _ => block_read_sq m c ⟨n, hN⟩ p q r w
  · intro n hn h0
    have hN : n < cfg0.N := lt_of_lt_of_eq hn N_0.symm
    have hN1 : n - 1 < cfg0.N := lt_of_lt_of_eq (by omega) N_0.symm
    unfold squaresAt
    rw [dif_pos hN, dif_pos hN1, heldAfter_later m c ⟨n, hN⟩ h0, later_accQ, added_squares]
    refine congrArg (fun z => (heldAfter m c (n - 1) hN1).2.2.2 (ix2 p q) + z) ?_
    unfold stepSum
    exact Finset.sum_congr rfl fun r _ => Finset.sum_congr rfl fun w _ => block_read_sq m c ⟨n, hN⟩ p q r w

/-- The outputs' staging buffers hold copies of the accumulators after every point. -/
theorem outs_are_accs (c : Dev nD) (n : ℕ) (h : n < cfg0.N) :
    (heldAfter m c n h).1 = (heldAfter m c n h).2.2.1 ∧ (heldAfter m c n h).2.1 = (heldAfter m c n h).2.2.2 := by
  by_cases h0 : n % 7 = 0
  · rw [heldAfter_first m c ⟨n, h⟩ h0]
    exact ⟨(first_outS m c ⟨n, h⟩ h0).trans (first_accS m c ⟨n, h⟩ h0).symm, (first_outQ m c ⟨n, h⟩ h0).trans (first_accQ m c ⟨n, h⟩ h0).symm⟩
  · rw [heldAfter_later m c ⟨n, h⟩ h0]
    exact ⟨(later_outS m c ⟨n, h⟩ h0 _ _).trans (later_accS m c ⟨n, h⟩ h0 _ _).symm, (later_outQ m c ⟨n, h⟩ h0 _ _).trans (later_accQ m c ⟨n, h⟩ h0 _ _).symm⟩

end Cert.KernelIdeal.Stats

end
-- ==== Proof.StatsTail.lean ====
/-
  The statistics computed from the per-(batch, channel) sums `s` and sums of squares `q`, both [64, 256].

  Over the batch: the column sums of `s` and `q` divided by 64 * 3136 = 200704 give the mean and the mean of squares of
  each channel, and the variance is the mean of squares less the square of the mean. Over groups of 2, 4, 8 and 16
  adjacent channels: adjacent entries are added in pairs (a [64, 2n] array read as [64, n, 2] and summed over its last
  axis), once for groups of 2, again for groups of 4, and so on; the group's sum divided by its number of elements
  (2, 4, 8, 16 times 3136) is its mean, and likewise its variance. The kernel's program and the reference apply exactly
  these operations, with these constants, to their own `s` and `q`; stating them once lets the two be compared by
  comparing `s` and `q` alone.
-/
import Idealize.ShloMosaic.PureOps
import Idealize.ShloMosaic.PureOps.Ideal

noncomputable section

namespace Cert.StatsTail

open Idealize.ShloMosaic

variable {F : FTy → Type} [FloatOps F]

abbrev S0 : Shape := ⟨0, ![]⟩
abbrev A4 : Shape := ⟨4, ![64, 256, 56, 56]⟩
abbrev A256 : Shape := ⟨2, ![64, 256]⟩
abbrev C256 : Shape := ⟨1, ![256]⟩
abbrev P128 : Shape := ⟨3, ![64, 128, 2]⟩
abbrev A128 : Shape := ⟨2, ![64, 128]⟩
abbrev P64 : Shape := ⟨3, ![64, 64, 2]⟩
abbrev A64 : Shape := ⟨2, ![64, 64]⟩
abbrev P32 : Shape := ⟨3, ![64, 32, 2]⟩
abbrev A32 : Shape := ⟨2, ![64, 32]⟩
abbrev P16 : Shape := ⟨3, ![64, 16, 2]⟩
abbrev A16 : Shape := ⟨2, ![64, 16]⟩

theorem hS0 : 0 < S0.numel := by decide
theorem red_hw : A4.ReducesTo [2, 3] A256 := by decide
theorem red_batch : A256.ReducesTo [0] C256 := by decide
theorem bc_C256 : S0.BroadcastsInDim C256 (![] : Fin 0 → Fin C256.rank) := by decide
theorem cast128 : A256.ShapeCasts P128 := by decide
theorem red128 : P128.ReducesTo [2] A128 := by decide
theorem bc_A128 : S0.BroadcastsInDim A128 (![] : Fin 0 → Fin A128.rank) := by decide
theorem cast64 : A128.ShapeCasts P64 := by decide
theorem red64 : P64.ReducesTo [2] A64 := by decide
theorem bc_A64 : S0.BroadcastsInDim A64 (![] : Fin 0 → Fin A64.rank) := by decide
theorem cast32 : A64.ShapeCasts P32 := by decide
theorem red32 : P32.ReducesTo [2] A32 := by decide
theorem bc_A32 : S0.BroadcastsInDim A32 (![] : Fin 0 → Fin A32.rank) := by decide
theorem cast16 : A32.ShapeCasts P16 := by decide
theorem red16 : P16.ReducesTo [2] A16 := by decide
theorem bc_A16 : S0.BroadcastsInDim A16 (![] : Fin 0 → Fin A16.rank) := by decide

/-- The reference's `s`: the argument summed over its last two axes, from zero. -/
def sumHW (x : FVec F A4 .f32) : FVec F A256 .f32 :=
  Host.reduceAdd x (constant S0 .f32 0x00000000#32) red_hw hS0
/-- The reference's `q`: the squares summed likewise. -/
def sumSqHW (x : FVec F A4 .f32) : FVec F A256 .f32 :=
  Host.reduceAdd (mulf x x) (constant S0 .f32 0x00000000#32) red_hw hS0

/-- Column sums over the batch, divided by 200704. -/
def batchMean (s : FVec F A256 .f32) : FVec F C256 .f32 :=
  Host.divf (Host.reduceAdd s (constant S0 .f32 0x00000000#32) red_batch hS0) (broadcastInDim C256 ![] bc_C256 (constant S0 .f32 0x48440000#32))
def batchVar (s q : FVec F A256 .f32) : FVec F C256 .f32 :=
  subf (batchMean q) (mulf (batchMean s) (batchMean s))

/-- Adjacent channels added in pairs, level by level. -/
def pairs128 (s : FVec F A256 .f32) : FVec F A128 .f32 :=
  Host.reduceAdd (shapeCast P128 s cast128) (constant S0 .f32 0x00000000#32) red128 hS0
def pairs64 (s : FVec F A128 .f32) : FVec F A64 .f32 :=
  Host.reduceAdd (shapeCast P64 s cast64) (constant S0 .f32 0x00000000#32) red64 hS0
def pairs32 (s : FVec F A64 .f32) : FVec F A32 .f32 :=
  Host.reduceAdd (shapeCast P32 s cast32) (constant S0 .f32 0x00000000#32) red32 hS0
def pairs16 (s : FVec F A32 .f32) : FVec F A16 .f32 :=
  Host.reduceAdd (shapeCast P16 s cast16) (constant S0 .f32 0x00000000#32) red16 hS0

/-- Groups of 2 channels: divided by 6272. -/
def mean2 (s : FVec F A256 .f32) : FVec F A128 .f32 :=
  Host.divf (pairs128 s) (broadcastInDim A128 ![] bc_A128 (constant S0 .f32 0x45C40000#32))
def var2 (s q : FVec F A256 .f32) : FVec F A128 .f32 := subf (mean2 q) (mulf (mean2 s) (mean2 s))
/-- Groups of 4: divided by 12544. -/
def mean4 (s : FVec F A256 .f32) : FVec F A64 .f32 :=
  Host.divf (pairs64 (pairs128 s)) (broadcastInDim A64 ![] bc_A64 (constant S0 .f32 0x46440000#32))
def var4 (s q : FVec F A256 .f32) : FVec F A64 .f32 := subf (mean4 q) (mulf (mean4 s) (mean4 s))
/-- Groups of 8: divided by 25088. -/
def mean8 (s : FVec F A256 .f32) : FVec F A32 .f32 :=
  Host.divf (pairs32 (pairs64 (pairs128 s))) (broadcastInDim A32 ![] bc_A32 (constant S0 .f32 0x46C40000#32))
def var8 (s q : FVec F A256 .f32) : FVec F A32 .f32 := subf (mean8 q) (mulf (mean8 s) (mean8 s))
/-- Groups of 16: divided by 50176. -/
def mean16 (s : FVec F A256 .f32) : FVec F A16 .f32 :=
  Host.divf (pairs16 (pairs32 (pairs64 (pairs128 s)))) (broadcastInDim A16 ![] bc_A16 (constant S0 .f32 0x47440000#32))
def var16 (s q : FVec F A256 .f32) : FVec F A16 .f32 := subf (mean16 q) (mulf (mean16 s) (mean16 s))

end Cert.StatsTail

end
-- ==== Proof.KernelIdealArrays.lean ====
/-
  The region's two result arrays, as functions of the argument.

  An output block (i, j) is written back once, after the last of its seven steps; what is written is the accumulator,
  which by then holds the seven step sums, that is, the sum over all 56 rows and 56 lanes of the argument at the block's
  (batch, channel) entries. Every (batch, channel) entry lies in exactly such a block, so after the region the first
  result array is the argument summed over its last two axes and the second the squares summed likewise: the same two
  arrays the reference starts from.
-/
import proofs.«129450_j49847390437779_2_alg».proof.Proof.KernelIdealSteps
import proofs.«129450_j49847390437779_2_alg».proof.Proof.StatsTail
import Idealize.ShloMosaic.Lib.Pipeline.Value

set_option maxRecDepth 16384

noncomputable section

namespace Cert.KernelIdeal.Stats

open Cert.KernelIdeal Cert.KernelIdeal.Gen Cert.StatsSums Cert.StatsTail
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The reference's two sums at an entry -/

theorem sumHW_apply (x : Arr.Idx → EReal) (b : Fin 64) (ch : Fin 256) :
    sumHW (F := Ideal) x (ix2 b ch) = ∑ hh : Fin 56, ∑ w : Fin 56, x (ix4 b ch hh w) := by
  unfold sumHW
  simp only [Host.reduceAdd, Ideal.hostReduceAdd_def]
  refine (hostSum_two_axes red_hw x _ b ch).trans ?_
  rw [show (constant (F := Ideal) S0 .f32 0x00000000#32) (Shape.Idx.first hS0) = 0 from Ideal.ofBits_zero_f32, zero_add]

theorem sumSqHW_apply (x : Arr.Idx → EReal) (b : Fin 64) (ch : Fin 256) :
    sumSqHW (F := Ideal) x (ix2 b ch) = ∑ hh : Fin 56, ∑ w : Fin 56, (fun i => x i * x i) (ix4 b ch hh w) := by
  unfold sumSqHW
  simp only [Host.reduceAdd, Ideal.hostReduceAdd_def]
  refine (hostSum_two_axes red_hw (mulf (F := Ideal) x x) _ b ch).trans ?_
  rw [show (constant (F := Ideal) S0 .f32 0x00000000#32) (Shape.Idx.first hS0) = 0 from Ideal.ofBits_zero_f32, zero_add]
  rfl

/-! ## The outputs' blocks -/

theorem out_index1 : ∀ t : Fin cfg0.N, win0_1.index t (0 : Fin 2) = t.val / 14 ∧ win0_1.index t (1 : Fin 2) = t.val / 7 % 2 :=
  (by decide +kernel : ∀ t : Fin grid0.N, win0_1.index t (0 : Fin 2) = t.val / 14 ∧ win0_1.index t (1 : Fin 2) = t.val / 7 % 2)
theorem out_index2 : ∀ t : Fin cfg0.N, win0_2.index t (0 : Fin 2) = t.val / 14 ∧ win0_2.index t (1 : Fin 2) = t.val / 7 % 2 :=
  (by decide +kernel : ∀ t : Fin grid0.N, win0_2.index t (0 : Fin 2) = t.val / 14 ∧ win0_2.index t (1 : Fin 2) = t.val / 7 % 2)

/-- What a write-back of the sums' window writes: the block of the argument's sums over its last two axes. -/
theorem flushed_sums (c : Dev nD) (t : Fin cfg0.N) (hf : (cfg0.win 1).flush t = true) :
    (dats m 0 c).flushed 1 t = ((cfg0.win 1).blk t).view.read (Elt Ideal) (sumHW (F := Ideal) (argArr m c)) := by
  have h6 : t.val % 7 = 6 := (flush0_1 t).mp hf
  have ht : t.val < 112 := lt_of_lt_of_eq t.isLt N_0
  obtain ⟨e0, e1⟩ := out_index1 t
  show (cfg0.win 1).cut (grid0.coords t) ((dats m 0 c).after 1 t) = _
  rw [after1, (outs_are_accs m c t.val t.isLt).1]
  funext j
  obtain ⟨p, q, rfl⟩ : ∃ (p : Fin 8) (q : Fin 128), j = ix2 p q := ⟨j 0, j 1, eq_ix2 j⟩
  have hp := p.isLt; have hq := q.isLt
  have hidx : ((cfg0.win 1).blk t).view.emb (ix2 p q)
      = (ix2 (⟨8 * (t.val / 14) + p.val, by omega⟩ : Fin 64) (⟨128 * (t.val / 7 % 2) + q.val, by omega⟩ : Fin 256) : S64x256.Idx) := by
    funext a
    apply Fin.ext
    match a with
    | ⟨0, _⟩ => show win0_1.index t (0 : Fin 2) * 8 + 1 * p.val = 8 * (t.val / 14) + p.val; rw [e0]; omega
    | ⟨1, _⟩ => show win0_1.index t (1 : Fin 2) * 128 + 1 * q.val = 128 * (t.val / 7 % 2) + q.val; rw [e1]; omega
  have hL : (heldAfter m c t.val t.isLt).2.2.1 (ix2 p q) = sumsAt m c p q t.val := by
    unfold sumsAt; rw [dif_pos t.isLt]
  show (heldAfter m c t.val t.isLt).2.2.1 (ix2 p q) = sumHW (F := Ideal) (argArr m c) (((cfg0.win 1).blk t).view.emb (ix2 p q))
  rw [hL, hidx, sumsAt_total m c p q t.val ht, seven_steps _ t.val ht h6 p q, sumHW_apply]

/-- The same for the squares. -/
theorem flushed_squares (c : Dev nD) (t : Fin cfg0.N) (hf : (cfg0.win 2).flush t = true) :
    (dats m 0 c).flushed 2 t = ((cfg0.win 2).blk t).view.read (Elt Ideal) (sumSqHW (F := Ideal) (argArr m c)) := by
  have h6 : t.val % 7 = 6 := (flush0_2 t).mp hf
  have ht : t.val < 112 := lt_of_lt_of_eq t.isLt N_0
  obtain ⟨e0, e1⟩ := out_index2 t
  show (cfg0.win 2).cut (grid0.coords t) ((dats m 0 c).after 2 t) = _
  rw [after2, (outs_are_accs m c t.val t.isLt).2]
  funext j
  obtain ⟨p, q, rfl⟩ : ∃ (p : Fin 8) (q : Fin 128), j = ix2 p q := ⟨j 0, j 1, eq_ix2 j⟩
  have hp := p.isLt; have hq := q.isLt
  have hidx : ((cfg0.win 2).blk t).view.emb (ix2 p q)
      = (ix2 (⟨8 * (t.val / 14) + p.val, by omega⟩ : Fin 64) (⟨128 * (t.val / 7 % 2) + q.val, by omega⟩ : Fin 256) : S64x256.Idx) := by
    funext a
    apply Fin.ext
    match a with
    | ⟨0, _⟩ => show win0_2.index t (0 : Fin 2) * 8 + 1 * p.val = 8 * (t.val / 14) + p.val; rw [e0]; omega
    | ⟨1, _⟩ => show win0_2.index t (1 : Fin 2) * 128 + 1 * q.val = 128 * (t.val / 7 % 2) + q.val; rw [e1]; omega
  have hL : (heldAfter m c t.val t.isLt).2.2.2 (ix2 p q) = squaresAt m c p q t.val := by
    unfold squaresAt; rw [dif_pos t.isLt]
  show (heldAfter m c t.val t.isLt).2.2.2 (ix2 p q) = sumSqHW (F := Ideal) (argArr m c) (((cfg0.win 2).blk t).view.emb (ix2 p q))
  rw [hL, hidx, squaresAt_total m c p q t.val ht, seven_steps _ t.val ht h6 p q, sumSqHW_apply]

/-- An entry is in point `t`'s output block iff each coordinate is in the block's range. -/
theorem mem_blk1 (t : Fin cfg0.N) (i : S64x256.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0_0).slice (win0_1.rect t)).set ↔ _
  rw [View.set_slice_whole, Rect.mem_set_unit]
  exact Iff.rfl
theorem mem_blk2 (t : Fin cfg0.N) (i : S64x256.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_1).slice (win0_2.rect t)).set ↔ _
  rw [View.set_slice_whole, Rect.mem_set_unit]
  exact Iff.rfl

/-- Every entry is in the block written back at the last step of its block row and column. -/
theorem covered1 (i : S64x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  have hlt : 7 * (2 * ((i 0).val / 8) + (i 1).val / 128) + 6 < cfg0.N := lt_of_lt_of_eq (by omega) N_0.symm
  refine ⟨⟨7 * (2 * ((i 0).val / 8) + (i 1).val / 128) + 6, hlt⟩, (flush0_1 _).mpr (by show (7 * (2 * ((i 0).val / 8) + (i 1).val / 128) + 6) % 7 = 6; omega), ?_⟩
  rw [mem_blk1]
  have e0 : win0_1.index ⟨7 * (2 * ((i 0).val / 8) + (i 1).val / 128) + 6, hlt⟩ (0 : Fin 2) = (7 * (2 * ((i 0).val / 8) + (i 1).val / 128) + 6) / 14 := (out_index1 ⟨_, hlt⟩).1
  have e1 : win0_1.index ⟨7 * (2 * ((i 0).val / 8) + (i 1).val / 128) + 6, hlt⟩ (1 : Fin 2) = (7 * (2 * ((i 0).val / 8) + (i 1).val / 128) + 6) / 7 % 2 := (out_index1 ⟨_, hlt⟩).2
  intro a
  match a with
  | ⟨0, _⟩ =>
    show win0_1.index ⟨_, hlt⟩ (0 : Fin 2) * 8 ≤ (i 0).val ∧ (i 0).val < win0_1.index ⟨_, hlt⟩ (0 : Fin 2) * 8 + 8
    rw [e0]; omega
  | ⟨1, _⟩ =>
    show win0_1.index ⟨_, hlt⟩ (1 : Fin 2) * 128 ≤ (i 1).val ∧ (i 1).val < win0_1.index ⟨_, hlt⟩ (1 : Fin 2) * 128 + 128
    rw [e1]; omega

theorem covered2 (i : S64x256.Idx) :
    ∃ t : Fin cfg0.N, (cfg0.win 2).flush t = true ∧ i ∈ ((cfg0.win 2).blk t).view.set := by
  have hi0 : (i 0).val < 64 := (i 0).isLt
  have hi1 : (i 1).val < 256 := (i 1).isLt
  have hlt : 7 * (2 * ((i 0).val / 8) + (i 1).val / 128) + 6 < cfg0.N := lt_of_lt_of_eq (by omega) N_0.symm
  refine ⟨⟨7 * (2 * ((i 0).val / 8) + (i 1).val / 128) + 6, hlt⟩, (flush0_2 _).mpr (by show (7 * (2 * ((i 0).val / 8) + (i 1).val / 128) + 6) % 7 = 6; omega), ?_⟩
  rw [mem_blk2]
  have e0 : win0_2.index ⟨7 * (2 * ((i 0).val / 8) + (i 1).val / 128) + 6, hlt⟩ (0 : Fin 2) = (7 * (2 * ((i 0).val / 8) + (i 1).val / 128) + 6) / 14 := (out_index2 ⟨_, hlt⟩).1
  have e1 : win0_2.index ⟨7 * (2 * ((i 0).val / 8) + (i 1).val / 128) + 6, hlt⟩ (1 : Fin 2) = (7 * (2 * ((i 0).val / 8) + (i 1).val / 128) + 6) / 7 % 2 := (out_index2 ⟨_, hlt⟩).2
  intro a
  match a with
  | ⟨0, _⟩ =>
    show win0_2.index ⟨_, hlt⟩ (0 : Fin 2) * 8 ≤ (i 0).val ∧ (i 0).val < win0_2.index ⟨_, hlt⟩ (0 : Fin 2) * 8 + 8
    rw [e0]; omega
  | ⟨1, _⟩ =>
    show win0_2.index ⟨_, hlt⟩ (1 : Fin 2) * 128 ≤ (i 1).val ∧ (i 1).val < win0_2.index ⟨_, hlt⟩ (1 : Fin 2) * 128 + 128
    rw [e1]; omega

/-! ## The two arrays after the region -/

theorem final_sums (c : Dev nD) : (dats m 0 c).arrAt 1 cfg0.N = sumHW (F := Ideal) (argArr m c) :=
  (dats m 0 c).arrAt_eq_of_cover 1 (sumHW (F := Ideal) (argArr m c)) (flushed_sums m c) covered1

theorem final_squares (c : Dev nD) : (dats m 0 c).arrAt 2 cfg0.N = sumSqHW (F := Ideal) (argArr m c) :=
  (dats m 0 c).arrAt_eq_of_cover 2 (sumSqHW (F := Ideal) (argArr m c)) (flushed_squares m c) covered2

end Cert.KernelIdeal.Stats

end
-- ==== Proof.KernelIdealResults.lean ====
/-
  The kernel program's ten results.

  After the region the 68 host operations read only the two result arrays (and constants), so each of the program's
  results is one of the shared statistics — the batch mean and variance, and the means and variances over groups of
  2, 4, 8 and 16 channels — of those two arrays, which are the argument's sums and sums of squares over its last two
  axes. The run of the whole program, re-posted with every result named that way, is what the comparison with the
  reference uses.
-/
import proofs.«129450_j49847390437779_2_alg».proof.Proof.KernelIdealArrays
import Idealize.ShloMosaic.Lib.StableHlo.Run

set_option maxRecDepth 16384

noncomputable section

namespace Cert.KernelIdeal.Stats

open Cert.KernelIdeal Cert.KernelIdeal.Gen Cert.StatsSums Cert.StatsTail
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- After the region the two result buffers hold the region's arrays. -/
theorem sums_read (c : Dev nD) :
    Pipeline.withArrays (cfgs 0).spec c (entry0 m c) (fun w => (dats m 0 c).arrAt w (cfgs 0).N) (Proc.devRef .tc main_v0_0)
      = (dats m 0 c).arrAt 1 cfg0.N :=
  Pipeline.withArrays_arr spec0 launch0.win.arr_inj c _ _ 1
theorem squares_read (c : Dev nD) :
    Pipeline.withArrays (cfgs 0).spec c (entry0 m c) (fun w => (dats m 0 c).arrAt w (cfgs 0).N) (Proc.devRef .tc main_v0_1)
      = (dats m 0 c).arrAt 2 cfg0.N :=
  Pipeline.withArrays_arr spec0 launch0.win.arr_inj c _ _ 2

set_option maxHeartbeats 4000000 in
theorem res_main_v3 (c : Dev nD) : Pipeline.afterTail₀ cfgs (dats m) 0 (entry0 m) [hostOps1] c main_v3
    = batchMean (F := Ideal) (sumHW (F := Ideal) (argArr m c)) := by
  unfold Pipeline.afterTail₀
  show StableHlo.after hostOps1 _ (Proc.devRef .tc main_v3) = _
  after_results_simp
  rw [sums_read m c, final_sums]
  rfl

set_option maxHeartbeats 4000000 in
theorem res_main_v8 (c : Dev nD) : Pipeline.afterTail₀ cfgs (dats m) 0 (entry0 m) [hostOps1] c main_v8
    = batchVar (F := Ideal) (sumHW (F := Ideal) (argArr m c)) (sumSqHW (F := Ideal) (argArr m c)) := by
  unfold Pipeline.afterTail₀
  show StableHlo.after hostOps1 _ (Proc.devRef .tc main_v8) = _
  after_results_simp
  rw [sums_read m c, final_sums, squares_read m c, final_squares]
  rfl

set_option maxHeartbeats 4000000 in
theorem res_main_v14 (c : Dev nD) : Pipeline.afterTail₀ cfgs (dats m) 0 (entry0 m) [hostOps1] c main_v14
    = mean2 (F := Ideal) (sumHW (F := Ideal) (argArr m c)) := by
  unfold Pipeline.afterTail₀
  show StableHlo.after hostOps1 _ (Proc.devRef .tc main_v14) = _
  after_results_simp
  rw [sums_read m c, final_sums]
  rfl

set_option maxHeartbeats 4000000 in
theorem res_main_v18 (c : Dev nD) : Pipeline.afterTail₀ cfgs (dats m) 0 (entry0 m) [hostOps1] c main_v18
    = var2 (F := Ideal) (sumHW (F := Ideal) (argArr m c)) (sumSqHW (F := Ideal) (argArr m c)) := by
  unfold Pipeline.afterTail₀
  show StableHlo.after hostOps1 _ (Proc.devRef .tc main_v18) = _
  after_results_simp
  rw [sums_read m c, final_sums, squares_read m c, final_squares]
  rfl

set_option maxHeartbeats 4000000 in
theorem res_main_v24 (c : Dev nD) : Pipeline.afterTail₀ cfgs (dats m) 0 (entry0 m) [hostOps1] c main_v24
    = mean4 (F := Ideal) (sumHW (F := Ideal) (argArr m c)) := by
  unfold Pipeline.afterTail₀
  show StableHlo.after hostOps1 _ (Proc.devRef .tc main_v24) = _
  after_results_simp
  rw [sums_read m c, final_sums]
  rfl

set_option maxHeartbeats 4000000 in
theorem res_main_v28 (c : Dev nD) : Pipeline.afterTail₀ cfgs (dats m) 0 (entry0 m) [hostOps1] c main_v28
    = var4 (F := Ideal) (sumHW (F := Ideal) (argArr m c)) (sumSqHW (F := Ideal) (argArr m c)) := by
  unfold Pipeline.afterTail₀
  show StableHlo.after hostOps1 _ (Proc.devRef .tc main_v28) = _
  after_results_simp
  rw [sums_read m c, final_sums, squares_read m c, final_squares]
  rfl

set_option maxHeartbeats 4000000 in
theorem res_main_v34 (c : Dev nD) : Pipeline.afterTail₀ cfgs (dats m) 0 (entry0 m) [hostOps1] c main_v34
    = mean8 (F := Ideal) (sumHW (F := Ideal) (argArr m c)) := by
  unfold Pipeline.afterTail₀
  show StableHlo.after hostOps1 _ (Proc.devRef .tc main_v34) = _
  after_results_simp
  rw [sums_read m c, final_sums]
  rfl

set_option maxHeartbeats 4000000 in
theorem res_main_v38 (c : Dev nD) : Pipeline.afterTail₀ cfgs (dats m) 0 (entry0 m) [hostOps1] c main_v38
    = var8 (F := Ideal) (sumHW (F := Ideal) (argArr m c)) (sumSqHW (F := Ideal) (argArr m c)) := by
  unfold Pipeline.afterTail₀
  show StableHlo.after hostOps1 _ (Proc.devRef .tc main_v38) = _
  after_results_simp
  rw [sums_read m c, final_sums, squares_read m c, final_squares]
  rfl

set_option maxHeartbeats 4000000 in
theorem res_main_v44 (c : Dev nD) : Pipeline.afterTail₀ cfgs (dats m) 0 (entry0 m) [hostOps1] c main_v44
    = mean16 (F := Ideal) (sumHW (F := Ideal) (argArr m c)) := by
  unfold Pipeline.afterTail₀
  show StableHlo.after hostOps1 _ (Proc.devRef .tc main_v44) = _
  after_results_simp
  rw [sums_read m c, final_sums]
  rfl

set_option maxHeartbeats 4000000 in
theorem res_main_v48 (c : Dev nD) : Pipeline.afterTail₀ cfgs (dats m) 0 (entry0 m) [hostOps1] c main_v48
    = var16 (F := Ideal) (sumHW (F := Ideal) (argArr m c)) (sumSqHW (F := Ideal) (argArr m c)) := by
  unfold Pipeline.afterTail₀
  show StableHlo.after hostOps1 _ (Proc.devRef .tc main_v48) = _
  after_results_simp
  rw [sums_read m c, final_sums, squares_read m c, final_squares]
  rfl

/-- A result buffer bypasses the region: it is unscoped and none of the region's arrays. -/
theorem bypasses (b : Ref sig .tc) (hs : b.isScoped = false) (ha : ∀ w : Fin cfg0.W, (spec0 w).arr.view.ref ≠ b) :
    b ∈ Pipeline.restRefs sig (cfgs 0).spec :=
  Pipeline.mem_restRefs_of b hs ha

/-- The program's run with the argument kept and every result named. -/
theorem run_values : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v3) = batchMean (F := Ideal) (sumHW (F := Ideal) (argArr m c))
      ∧ r.2.mem ((c.tc : Thread nD τ).loc main_v8) = batchVar (F := Ideal) (sumHW (F := Ideal) (argArr m c)) (sumSqHW (F := Ideal) (argArr m c))
      ∧ r.2.mem ((c.tc : Thread nD τ).loc main_v14) = mean2 (F := Ideal) (sumHW (F := Ideal) (argArr m c))
      ∧ r.2.mem ((c.tc : Thread nD τ).loc main_v18) = var2 (F := Ideal) (sumHW (F := Ideal) (argArr m c)) (sumSqHW (F := Ideal) (argArr m c))
      ∧ r.2.mem ((c.tc : Thread nD τ).loc main_v24) = mean4 (F := Ideal) (sumHW (F := Ideal) (argArr m c))
      ∧ r.2.mem ((c.tc : Thread nD τ).loc main_v28) = var4 (F := Ideal) (sumHW (F := Ideal) (argArr m c)) (sumSqHW (F := Ideal) (argArr m c))
      ∧ r.2.mem ((c.tc : Thread nD τ).loc main_v34) = mean8 (F := Ideal) (sumHW (F := Ideal) (argArr m c))
      ∧ r.2.mem ((c.tc : Thread nD τ).loc main_v38) = var8 (F := Ideal) (sumHW (F := Ideal) (argArr m c)) (sumSqHW (F := Ideal) (argArr m c))
      ∧ r.2.mem ((c.tc : Thread nD τ).loc main_v44) = mean16 (F := Ideal) (sumHW (F := Ideal) (argArr m c))
      ∧ r.2.mem ((c.tc : Thread nD τ).loc main_v48) = var16 (F := Ideal) (sumHW (F := Ideal) (argArr m c)) (sumSqHW (F := Ideal) (argArr m c)) :=
  (θ_run defs _ _).mono (fun r h c =>
    ⟨((h c).1 0).trans (((dats m 0 c).arrAt_in 0 rfl _).trans ((A_eq m c 0).trans (entryAt_arg m c))),
     ((h c).2 main_v3 (bypasses main_v3 rfl (fun w => by fin_cases w <;> decide))).trans (res_main_v3 m c),
     ((h c).2 main_v8 (bypasses main_v8 rfl (fun w => by fin_cases w <;> decide))).trans (res_main_v8 m c),
     ((h c).2 main_v14 (bypasses main_v14 rfl (fun w => by fin_cases w <;> decide))).trans (res_main_v14 m c),
     ((h c).2 main_v18 (bypasses main_v18 rfl (fun w => by fin_cases w <;> decide))).trans (res_main_v18 m c),
     ((h c).2 main_v24 (bypasses main_v24 rfl (fun w => by fin_cases w <;> decide))).trans (res_main_v24 m c),
     ((h c).2 main_v28 (bypasses main_v28 rfl (fun w => by fin_cases w <;> decide))).trans (res_main_v28 m c),
     ((h c).2 main_v34 (bypasses main_v34 rfl (fun w => by fin_cases w <;> decide))).trans (res_main_v34 m c),
     ((h c).2 main_v38 (bypasses main_v38 rfl (fun w => by fin_cases w <;> decide))).trans (res_main_v38 m c),
     ((h c).2 main_v44 (bypasses main_v44 rfl (fun w => by fin_cases w <;> decide))).trans (res_main_v44 m c),
     ((h c).2 main_v48 (bypasses main_v48 rfl (fun w => by fin_cases w <;> decide))).trans (res_main_v48 m c)⟩)
    (run_main m ρ)

end Cert.KernelIdeal.Stats

end
-- ==== Proof.ReferenceValue.lean ====
/-
  The reference program's ten results.

  The reference first sums the argument, and its squares, over the last two axes, and then applies the shared
  statistics to those two arrays: its generated run states each result as the composed operations of the argument, which
  is, operation for operation and constant for constant, the shared statistic of the two sums.
-/
import proofs.«129450_j49847390437779_2_alg».proof.Proof.Gen.ReferenceIdeal.Run
import proofs.«129450_j49847390437779_2_alg».proof.Proof.StatsTail

set_option maxRecDepth 16384

noncomputable section

namespace Cert.ReferenceIdeal.RefValue

open Cert.ReferenceIdeal Cert.ReferenceIdeal.Gen Cert.StatsTail
open Idealize.ShloMosaic Idealize.ShloMosaic.TcCoe Idealize.SL.Sem

variable (m : (ℓ : Loc nD τ sig) → Buf (Elt Ideal) ℓ) (ρ : Dev nD → PrngReg)

set_option maxHeartbeats 4000000 in
/-- The reference's run with the argument kept and every result named as a shared statistic of the two sums. -/
theorem run_values : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v5) = batchMean (F := Ideal) (sumHW (F := Ideal) (m ((c.tc : Thread nD τ).loc main_arg0)))
      ∧ r.2.mem ((c.tc : Thread nD τ).loc main_v10) = batchVar (F := Ideal) (sumHW (F := Ideal) (m ((c.tc : Thread nD τ).loc main_arg0))) (sumSqHW (F := Ideal) (m ((c.tc : Thread nD τ).loc main_arg0)))
      ∧ r.2.mem ((c.tc : Thread nD τ).loc main_v16) = mean2 (F := Ideal) (sumHW (F := Ideal) (m ((c.tc : Thread nD τ).loc main_arg0)))
      ∧ r.2.mem ((c.tc : Thread nD τ).loc main_v20) = var2 (F := Ideal) (sumHW (F := Ideal) (m ((c.tc : Thread nD τ).loc main_arg0))) (sumSqHW (F := Ideal) (m ((c.tc : Thread nD τ).loc main_arg0)))
      ∧ r.2.mem ((c.tc : Thread nD τ).loc main_v26) = mean4 (F := Ideal) (sumHW (F := Ideal) (m ((c.tc : Thread nD τ).loc main_arg0)))
      ∧ r.2.mem ((c.tc : Thread nD τ).loc main_v30) = var4 (F := Ideal) (sumHW (F := Ideal) (m ((c.tc : Thread nD τ).loc main_arg0))) (sumSqHW (F := Ideal) (m ((c.tc : Thread nD τ).loc main_arg0)))
      ∧ r.2.mem ((c.tc : Thread nD τ).loc main_v36) = mean8 (F := Ideal) (sumHW (F := Ideal) (m ((c.tc : Thread nD τ).loc main_arg0)))
      ∧ r.2.mem ((c.tc : Thread nD τ).loc main_v40) = var8 (F := Ideal) (sumHW (F := Ideal) (m ((c.tc : Thread nD τ).loc main_arg0))) (sumSqHW (F := Ideal) (m ((c.tc : Thread nD τ).loc main_arg0)))
      ∧ r.2.mem ((c.tc : Thread nD τ).loc main_v46) = mean16 (F := Ideal) (sumHW (F := Ideal) (m ((c.tc : Thread nD τ).loc main_arg0)))
      ∧ r.2.mem ((c.tc : Thread nD τ).loc main_v50) = var16 (F := Ideal) (sumHW (F := Ideal) (m ((c.tc : Thread nD τ).loc main_arg0))) (sumSqHW (F := Ideal) (m ((c.tc : Thread nD τ).loc main_arg0))) :=
  (θ_run defs _ _).mono (fun r h c => by
    obtain ⟨h0, h1, h2, h3, h4, h5, h6, h7, h8, h9, h10, -⟩ := h c
    exact ⟨h0, h1, h2, h3, h4, h5, h6, h7, h8, h9, h10⟩)
    (Cert.ReferenceIdeal.Value.run (F := Ideal) m ρ)

end Cert.ReferenceIdeal.RefValue

end
-- ==== Proof.lean ====
/-
  The certificate of the batch and group statistics kernel against its reference.

  Both programs return the argument, the per-channel mean and variance over the batch, and the means and variances over
  groups of 2, 4, 8 and 16 adjacent channels. Both compute them from the per-(batch, channel) sums and sums of squares
  over the 56 x 56 plane by the same host operations with the same constants. They differ only in how the two sums are
  formed: the reference by one reduction over the last two axes; the kernel by a region over a grid of 8 x 2 x 7 points
  that accumulates, in two scratch buffers cleared at the first of every seven steps, the sums of [8, 128, 8, 56] blocks
  taken first over the lanes and then over the block's 8 rows. Over the extended reals addition is commutative and
  associative at the infinities too, so the two groupings of each sum agree and no finiteness of the argument is used.

  The frames: each program runs to its end without a fault and leaves its argument unchanged — for the kernel's program,
  read at words and at extended reals, from the launch theorem for a region that carries scratch between points and
  is followed by host operations; for the reference from its generated run. The idealization rewrote nothing, so there
  is nothing to preserve. The results: the kernel's two arrays after the region are the reference's two sums, hence
  every result, being the same function of them, is the same.
-/
import proofs.«129450_j49847390437779_2_alg».proof.Defs
import proofs.«129450_j49847390437779_2_alg».proof.Proof.Gen.Kernel
import proofs.«129450_j49847390437779_2_alg».proof.Proof.Gen.KernelIdeal
import proofs.«129450_j49847390437779_2_alg».proof.Proof.Gen.ReferenceIdeal
import proofs.«129450_j49847390437779_2_alg».proof.Proof.Gen.Pre_finite_inputs
import proofs.«129450_j49847390437779_2_alg».proof.Proof.Gen.ReferenceIdeal.Run
import proofs.«129450_j49847390437779_2_alg».proof.Proof.KernelFrame
import proofs.«129450_j49847390437779_2_alg».proof.Proof.KernelIdealResults
import proofs.«129450_j49847390437779_2_alg».proof.Proof.ReferenceValue

set_option maxRecDepth 16384

noncomputable section

namespace Cert.Proof

open Idealize.ShloMosaic Idealize.ShloMosaic.TcCoe Idealize.SL.Sem Cert.StatsTail

theorem frame_kernel : Cert.frame_Kernel := fun m ρ _ => Cert.Kernel.Stats.frame m ρ
theorem frame_kernelIdeal : Cert.frame_KernelIdeal := fun m ρ _ => Cert.KernelIdeal.Stats.frame m ρ
theorem frame_reference : Cert.frame_ReferenceIdeal := fun m ρ _ =>
  (θ_run Cert.ReferenceIdeal.defs _ _).mono (fun _ h c => (h c).1) (Cert.ReferenceIdeal.Value.run (F := Ideal) m ρ)

theorem preserves : Cert.preserves_Kernel_KernelIdeal := trivial

set_option maxHeartbeats 4000000 in
/-- From memories that agree on the argument both programs end with the argument kept and with each result the shared
    statistic of the argument's sums and sums of squares over its last two axes. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => batchMean (F := Ideal) (sumHW (F := Ideal) (m ((c.tc : Thread Cert.KernelIdeal.nD Cert.KernelIdeal.τ).loc Cert.KernelIdeal.main_arg0))),
    fun c => batchVar (F := Ideal) (sumHW (F := Ideal) (m ((c.tc : Thread Cert.KernelIdeal.nD Cert.KernelIdeal.τ).loc Cert.KernelIdeal.main_arg0))) (sumSqHW (F := Ideal) (m ((c.tc : Thread Cert.KernelIdeal.nD Cert.KernelIdeal.τ).loc Cert.KernelIdeal.main_arg0))),
    fun c => mean2 (F := Ideal) (sumHW (F := Ideal) (m ((c.tc : Thread Cert.KernelIdeal.nD Cert.KernelIdeal.τ).loc Cert.KernelIdeal.main_arg0))),
    fun c => var2 (F := Ideal) (sumHW (F := Ideal) (m ((c.tc : Thread Cert.KernelIdeal.nD Cert.KernelIdeal.τ).loc Cert.KernelIdeal.main_arg0))) (sumSqHW (F := Ideal) (m ((c.tc : Thread Cert.KernelIdeal.nD Cert.KernelIdeal.τ).loc Cert.KernelIdeal.main_arg0))),
    fun c => mean4 (F := Ideal) (sumHW (F := Ideal) (m ((c.tc : Thread Cert.KernelIdeal.nD Cert.KernelIdeal.τ).loc Cert.KernelIdeal.main_arg0))),
    fun c => var4 (F := Ideal) (sumHW (F := Ideal) (m ((c.tc : Thread Cert.KernelIdeal.nD Cert.KernelIdeal.τ).loc Cert.KernelIdeal.main_arg0))) (sumSqHW (F := Ideal) (m ((c.tc : Thread Cert.KernelIdeal.nD Cert.KernelIdeal.τ).loc Cert.KernelIdeal.main_arg0))),
    fun c => mean8 (F := Ideal) (sumHW (F := Ideal) (m ((c.tc : Thread Cert.KernelIdeal.nD Cert.KernelIdeal.τ).loc Cert.KernelIdeal.main_arg0))),
    fun c => var8 (F := Ideal) (sumHW (F := Ideal) (m ((c.tc : Thread Cert.KernelIdeal.nD Cert.KernelIdeal.τ).loc Cert.KernelIdeal.main_arg0))) (sumSqHW (F := Ideal) (m ((c.tc : Thread Cert.KernelIdeal.nD Cert.KernelIdeal.τ).loc Cert.KernelIdeal.main_arg0))),
    fun c => mean16 (F := Ideal) (sumHW (F := Ideal) (m ((c.tc : Thread Cert.KernelIdeal.nD Cert.KernelIdeal.τ).loc Cert.KernelIdeal.main_arg0))),
    fun c => var16 (F := Ideal) (sumHW (F := Ideal) (m ((c.tc : Thread Cert.KernelIdeal.nD Cert.KernelIdeal.τ).loc Cert.KernelIdeal.main_arg0))) (sumSqHW (F := Ideal) (m ((c.tc : Thread Cert.KernelIdeal.nD Cert.KernelIdeal.τ).loc Cert.KernelIdeal.main_arg0))),
    ?_, ?_⟩
  · refine (θ_run Cert.KernelIdeal.defs _ _).mono (fun r h c => ?_) (Cert.KernelIdeal.Stats.run_values m ρ)
    obtain ⟨k0, k1, k2, k3, k4, k5, k6, k7, k8, k9, k10⟩ := h c
    exact ⟨k0, k1, k2, k3, k4, k5, k6, k7, k8, k9, k10, k0⟩
  · refine (θ_run Cert.ReferenceIdeal.defs _ _).mono (fun r h c => ?_) (Cert.ReferenceIdeal.RefValue.run_values m' ρ')
    obtain ⟨k0, k1, k2, k3, k4, k5, k6, k7, k8, k9, k10⟩ := h c
    have e := hagree c
    rw [e] at k1 k2 k3 k4 k5 k6 k7 k8 k9 k10
    exact ⟨k0.trans e, k1, k2, k3, k4, k5, k6, k7, k8, k9, k10, k0⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
